-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S1048576 : Shape := ⟨1, ![1048576]⟩
abbrev S128 : Shape := ⟨1, ![128]⟩
abbrev S128x128 : Shape := ⟨2, ![128, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S65536x128 .f32) (main_arg1 : IVec S1048576 32) (main_arg2 : IVec S1048576 32) (main_arg3 : FVec F S1048576 .f32) (main_arg4 : FVec F S65536x128 .f32) (main_arg5 : FVec F S128 .f32) (main_arg6 : FVec F S128 .f32) (main_arg7 : FVec F S128 .f32) (main_arg8 : FVec F S128 .f32) (main_arg9 : FVec F S128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S1048576 .f32 := Host.absf main_arg3
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S65536x128 .f32 := Host.absf main_arg4
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S65536x128 : Shape := ⟨2, ![65536, 128]⟩
abbrev S1048576 : Shape := ⟨1, ![1048576]⟩
abbrev S128 : Shape := ⟨1, ![128]⟩
abbrev S128x128 : Shape := ⟨2, ![128, 128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩
abbrev S1048576x1 : Shape := ⟨2, ![1048576, 1]⟩
abbrev S_ : Shape := ⟨0, ![]⟩
abbrev S1048576x128 : Shape := ⟨2, ![1048576, 128]⟩

abbrev nBuf : Space → Nat
  | .hbm => 41
  | .vmem => 22
  | .smem => 0
  | _ => 0

abbrev bufTy : (tb : Table) → Fin (tcTables nBuf tb) → BufTy
  | .hbm, ⟨0, _⟩ => ⟨S65536x128, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S65536x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S65536x128, .f32⟩
  | .hbm, ⟨24, _⟩ => ⟨S1048576x1, .f32⟩
  | .hbm, ⟨25, _⟩ => ⟨S_, .i32⟩
  | .hbm, ⟨26, _⟩ => ⟨S1048576, .i32⟩
  | .hbm, ⟨27, _⟩ => ⟨S1048576, .i1⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S1048576, .i32⟩
  | .hbm, ⟨32, _⟩ => ⟨S1048576x1, .i32⟩
  | .hbm, ⟨33, _⟩ => ⟨S1048576x128, .f32⟩
  | .hbm, ⟨34, _⟩ => ⟨S1048576x128, .f32⟩
  | .hbm, ⟨35, _⟩ => ⟨S1048576x128, .f32⟩
  | .hbm, ⟨36, _⟩ => ⟨S_, .f32⟩
  | .hbm, ⟨37, _⟩ => ⟨S65536x128, .f32⟩
  | .hbm, ⟨38, _⟩ => ⟨S1048576x1, .i32⟩
  | .hbm, ⟨39, _⟩ => ⟨S65536x128, .f32⟩
  | .hbm, ⟨40, _⟩ => ⟨S65536x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S4096x128, .f32⟩
  | .local _ .vmem, ⟨21, _⟩ => ⟨S4096x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x128_0_1 : S1048576x1.BroadcastsInDim S1048576x128 (![0, 1] : Fin 2 → Fin S1048576x128.rank)
  bcast_S_S65536x128 : S_.BroadcastsInDim S65536x128 (![] : Fin 0 → Fin S65536x128.rank)
  shapeCasts_S4096x128_S4096x128 : S4096x128.ShapeCasts S4096x128
  dot_S4096x128_S128x128_S4096x128_1_0_0_1_n_n_wf : DotDims.WF S4096x128 S128x128 S4096x128 [1] [0] [0] [1] [] []
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S65536x128.size a
  hwx0_6 : ∀ i : grid0.Coords, EltTy.bits .f32 = 32 ∨ (Rect.block (s := S65536x128) S4096x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .f32 = 32 ∨ (Rect.block (s := S65536x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S65536x128.size a
  hwx1_1 : ∀ i : grid1.Coords, EltTy.bits .f32 = 32 ∨ (Rect.block (s := S65536x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4096x128.size a ≤ S65536x128.size a
  hwx1_8 : ∀ i : grid1.Coords, EltTy.bits .f32 = 32 ∨ (Rect.block (s := S65536x128) S4096x128.size (cc1_transform_8 i) (hinb1_8 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S4096x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S65536x128 : Shape := ⟨2, ![65536, 128]⟩
abbrev S1048576 : Shape := ⟨1, ![1048576]⟩
abbrev S128 : Shape := ⟨1, ![128]⟩
abbrev S128x128 : Shape := ⟨2, ![128, 128]⟩
abbrev S_ : Shape := ⟨0, ![]⟩
abbrev S65536 : Shape := ⟨1, ![65536]⟩
abbrev S65536x1 : Shape := ⟨2, ![65536, 1]⟩
abbrev S1x128 : Shape := ⟨2, ![1, 128]⟩
abbrev S1048576x1 : Shape := ⟨2, ![1048576, 1]⟩
abbrev S1048576x128 : Shape := ⟨2, ![1048576, 128]⟩

abbrev nBuf : Space → Nat
  | .hbm => 114
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S65536x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x128, .f32⟩
  | .hbm, ⟨22, _⟩ => ⟨S65536x128, .f32⟩
  | .hbm, ⟨23, _⟩ => ⟨S65536x128, .f32⟩
  | .hbm, ⟨24, _⟩ => ⟨S_, .f32⟩
  | .hbm, ⟨25, _⟩ => ⟨S65536, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x128, .f32⟩
  | .hbm, ⟨31, _⟩ => ⟨S65536x128, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536x1, .f32⟩
  | .hbm, ⟨36, _⟩ => ⟨S65536x128, .f32⟩
  | .hbm, ⟨37, _⟩ => ⟨S65536x128, .f32⟩
  | .hbm, ⟨38, _⟩ => ⟨S1x128, .f32⟩
  | .hbm, ⟨39, _⟩ => ⟨S65536x128, .f32⟩
  | .hbm, ⟨40, _⟩ => ⟨S65536x128, .f32⟩
  | .hbm, ⟨41, _⟩ => ⟨S1x128, .f32⟩
  | .hbm, ⟨42, _⟩ => ⟨S65536x128, .f32⟩
  | .hbm, ⟨43, _⟩ => ⟨S65536x128, .f32⟩
  | .hbm, ⟨44, _⟩ => ⟨S65536x128, .f32⟩
  | .hbm, ⟨45, _⟩ => ⟨S65536x128, .f32⟩
  | .hbm, ⟨46, _⟩ => ⟨S1x128, .f32⟩
  | .hbm, ⟨47, _⟩ => ⟨S65536x128, .f32⟩
  | .hbm, ⟨48, _⟩ => ⟨S65536x128, .f32⟩
  | .hbm, ⟨49, _⟩ => ⟨S65536x128, .f32⟩
  | .hbm, ⟨50, _⟩ => ⟨S65536x128, .f32⟩
  | .hbm, ⟨51, _⟩ => ⟨S_, .f32⟩
  | .hbm, ⟨52, _⟩ => ⟨S65536x128, .f32⟩
  | .hbm, ⟨53, _⟩ => ⟨S65536x128, .f32⟩
  | .hbm, ⟨54, _⟩ => ⟨S_, .f32⟩
  | .hbm, ⟨55, _⟩ => ⟨S65536x128, .f32⟩
  | .hbm, ⟨56, _⟩ => ⟨S65536x128, .f32⟩
  | .hbm, ⟨57, _⟩ => ⟨S65536x128, .f32⟩
  | .hbm, ⟨58, _⟩ => ⟨S1048576x1, .f32⟩
  | .hbm, ⟨59, _⟩ => ⟨S_, .i32⟩
  | .hbm, ⟨60, _⟩ => ⟨S1048576, .i32⟩
  | .hbm, ⟨61, _⟩ => ⟨S1048576, .i1⟩
  | .hbm, ⟨62, _⟩ => ⟨S_, .i32⟩
  | .hbm, ⟨63, _⟩ => ⟨S1048576, .i32⟩
  | .hbm, ⟨64, _⟩ => ⟨S1048576, .i32⟩
  | .hbm, ⟨65, _⟩ => ⟨S1048576, .i32⟩
  | .hbm, ⟨66, _⟩ => ⟨S1048576x1, .i32⟩
  | .hbm, ⟨67, _⟩ => ⟨S1048576x128, .f32⟩
  | .hbm, ⟨68, _⟩ => ⟨S1048576x128, .f32⟩
  | .hbm, ⟨69, _⟩ => ⟨S1048576x128, .f32⟩
  | .hbm, ⟨70, _⟩ => ⟨S_, .f32⟩
  | .hbm, ⟨71, _⟩ => ⟨S65536x128, .f32⟩
  | .hbm, ⟨72, _⟩ => ⟨S1048576x1, .i32⟩
  | .hbm, ⟨73, _⟩ => ⟨S65536x128, .f32⟩
  | .hbm, ⟨74, _⟩ => ⟨S65536x128, .f32⟩
  | .hbm, ⟨75, _⟩ => ⟨S1x128, .f32⟩
  | .hbm, ⟨76, _⟩ => ⟨S65536x128, .f32⟩
  | .hbm, ⟨77, _⟩ => ⟨S65536x128, .f32⟩
  | .hbm, ⟨78, _⟩ => ⟨S_, .f32⟩
  | .hbm, ⟨79, _⟩ => ⟨S65536, .f32⟩
  | .hbm, ⟨80, _⟩ => ⟨S65536x1, .f32⟩
  | .hbm, ⟨81, _⟩ => ⟨S_, .f32⟩
  | .hbm, ⟨82, _⟩ => ⟨S65536x1, .f32⟩
  | .hbm, ⟨83, _⟩ => ⟨S65536x1, .f32⟩
  | .hbm, ⟨84, _⟩ => ⟨S65536x128, .f32⟩
  | .hbm, ⟨85, _⟩ => ⟨S65536x128, .f32⟩
  | .hbm, ⟨86, _⟩ => ⟨S65536x128, .f32⟩
  | .hbm, ⟨87, _⟩ => ⟨S_, .f32⟩
  | .hbm, ⟨88, _⟩ => ⟨S65536, .f32⟩
  | .hbm, ⟨89, _⟩ => ⟨S65536x1, .f32⟩
  | .hbm, ⟨90, _⟩ => ⟨S_, .f32⟩
  | .hbm, ⟨91, _⟩ => ⟨S65536x1, .f32⟩
  | .hbm, ⟨92, _⟩ => ⟨S65536x1, .f32⟩
  | .hbm, ⟨93, _⟩ => ⟨S65536x128, .f32⟩
  | .hbm, ⟨94, _⟩ => ⟨S65536x128, .f32⟩
  | .hbm, ⟨95, _⟩ => ⟨S_, .f32⟩
  | .hbm, ⟨96, _⟩ => ⟨S65536x1, .f32⟩
  | .hbm, ⟨97, _⟩ => ⟨S65536x1, .f32⟩
  | .hbm, ⟨98, _⟩ => ⟨S65536x1, .f32⟩
  | .hbm, ⟨99, _⟩ => ⟨S65536x128, .f32⟩
  | .hbm, ⟨100, _⟩ => ⟨S65536x128, .f32⟩
  | .hbm, ⟨101, _⟩ => ⟨S1x128, .f32⟩
  | .hbm, ⟨102, _⟩ => ⟨S65536x128, .f32⟩
  | .hbm, ⟨103, _⟩ => ⟨S65536x128, .f32⟩
  | .hbm, ⟨104, _⟩ => ⟨S1x128, .f32⟩
  | .hbm, ⟨105, _⟩ => ⟨S65536x128, .f32⟩
  | .hbm, ⟨106, _⟩ => ⟨S65536x128, .f32⟩
  | .hbm, ⟨107, _⟩ => ⟨S1x128, .f32⟩
  | .hbm, ⟨108, _⟩ => ⟨S65536x128, .f32⟩
  | .hbm, ⟨109, _⟩ => ⟨S65536x128, .f32⟩
  | .hbm, ⟨110, _⟩ => ⟨S1x128, .f32⟩
  | .hbm, ⟨111, _⟩ => ⟨S65536x128, .f32⟩
  | .hbm, ⟨112, _⟩ => ⟨S65536x128, .f32⟩
  | .hbm, ⟨113, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v29 : Ref sig .tc := ⟨.hbm, 57, rfl⟩
abbrev main_v30 : Ref sig .tc := ⟨.hbm, 58, rfl⟩
abbrev main_c : Ref sig .tc := ⟨.hbm, 59, rfl⟩
abbrev main_v31 : Ref sig .tc := ⟨.hbm, 60, rfl⟩
abbrev main_v32 : Ref sig .tc := ⟨.hbm, 61, rfl⟩
abbrev main_c_4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_5 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_6 : Ref sig .tc := ⟨.hbm, 78, rfl⟩
abbrev main_v47 : Ref sig .tc := ⟨.hbm, 79, rfl⟩
abbrev main_v48 : Ref sig .tc := ⟨.hbm, 80, rfl⟩
abbrev main_cst_7 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_8 : Ref sig .tc := ⟨.hbm, 87, rfl⟩
abbrev main_v54 : Ref sig .tc := ⟨.hbm, 88, rfl⟩
abbrev main_v55 : Ref sig .tc := ⟨.hbm, 89, rfl⟩
abbrev main_cst_9 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩

abbrev nD : Nat := 1
abbrev τ : Topo := Topo.v7x

variable {F : FTy → Type} [FloatOps F]

class Facts₀ : Prop where
  reducesTo_S65536x128_S65536_d1 : S65536x128.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x128_0_1 : S65536x1.BroadcastsInDim S65536x128 (![0, 1] : Fin 2 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x128_0_1 : S1048576x1.BroadcastsInDim S1048576x128 (![0, 1] : Fin 2 → Fin S1048576x128.rank)
  dot_S65536x128_S128x128_S65536x128_1_0_0_1_n_n_wf : DotDims.WF S65536x128 S128x128 S65536x128 [1] [0] [0] [1] [] []
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1

variable [Facts₀]

def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf

class Facts : Prop extends Facts₀ where

variable [Facts]
-- ==== Proof.KRun.lean ====
/-
  The idealized kernel program's run with its RESULT named.  The program is four segments: eight reshapes of the
  parameter vectors, the first row-tiled kernel, sixteen host operations (the sparse aggregate: gather, scale,
  scatter-add), the second row-tiled kernel.  The buffer contents at the segment boundaries are a fold from the launch
  memory; the last boundary's contents `W4` hold every unscoped buffer of the final state.  Here the run is stated with
  the result array read off that last boundary, beside the unchanged arguments.
-/
import proofs.«160971_j18227841204838_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and the fifteen argument arrays end as launched. -/
theorem run_result : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Hand

end
-- ==== Proof.Rows.lean ====
/-
  The mathematics of one row, and the small layout facts a row-wise kernel needs.

  Both programs compute, for every row `p` of a [N, 128] array independently,
    h    = LN(x_p; w1, b1) + c_p · Wc + bc,          s = h · σ(h)                      (the first dense stage)
    out  = x_p + (LN(z_p · Wv + bv; w2, b2) · γ + β)                                   (the second dense stage)
  where LN(h; w, b)_q = (h_q − μ) · (var + ε)^(−1/2) · w_q + b_q with μ the mean of the row's 128 entries and var the
  mean of the squared deviations, σ(h) = 1 / (1 + e^(−h)), and `·` against a [128, 128] matrix is the sum over the 128
  shared coordinates.  These are stated here once, on the extended reals, as functions of a row; each program's result
  at an entry (p, q) is then shown to be that function of row p of its operands.

  The layout facts: a length-`a` vector cast to a column [a, 1]; a column [a, 1] broadcast along rows to [a, b]; and a
  lane sum along axis 1 of an [a, b] array read at row `p` as the sum of the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.GraphBlock

open Idealize.ShloMosaic Idealize.ShloMosaic.ValueIdx

/-! ## Layout facts -/

section Layout
variable {α : Type}

/-- A length-`a` vector cast to the column [a, 1] reads, at (p, u), the vector at p. -/
theorem cast_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at row p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane sum along axis 1 of an [a, b] array, read at row p at the ideal values, is the sum of that row's b entries. -/
theorem rowSum {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext ax
  apply Fin.ext
  match ax with
  | ⟨0, _⟩ => rfl
  | ⟨1, _⟩ => rfl

/-- The f32 word of 1.0 denotes the extended real 1. -/
theorem ofBits_one_f32 : Ideal.ofBits .f32 0x3F800000#32 = 1 := by
  simp [Ideal.ofBits, Ideal.ieee]
  rw [← EReal.coe_mul, ← EReal.coe_one]
  exact congrArg _ (by norm_num)

/-! ## One row -/

/-- The f32 word of 128.0, the row length the means divide by. -/
abbrev w128 : BitVec 32 := 0x43000000#32
/-- The f32 word nearest 1e-5, the variance's offset; the same word in both programs, never evaluated. -/
abbrev wEps : BitVec 32 := 0x3727C5AC#32

/-- The mean of a row's 128 entries. -/
def rowMean (h : Fin 128 → EReal) : EReal := Ideal.div (∑ k : Fin 128, h k) (Ideal.ofBits .f32 w128)

/-- Layer normalisation of a row with per-column scale `w` and shift `b`, at column q. -/
def lnRow (h w b : Fin 128 → EReal) (q : Fin 128) : EReal :=
  (h q - rowMean h)
    * Ideal.rsqrt (Ideal.div (∑ k : Fin 128, (h k - rowMean h) * (h k - rowMean h)) (Ideal.ofBits .f32 w128)
        + Ideal.ofBits .f32 wEps)
    * w q + b q

/-- A row against a [128, 128] matrix, at column q. -/
def dotRow (l : Fin 128 → EReal) (W : Fin 128 → Fin 128 → EReal) (q : Fin 128) : EReal := ∑ k : Fin 128, l k * W k q

/-- The first dense stage at column q of a row: the normalised row plus the conditioning projection and its bias,
    through x ↦ x · σ(x). -/
def prepRow (x c : Fin 128 → EReal) (W : Fin 128 → Fin 128 → EReal) (cb w b : Fin 128 → EReal) (q : Fin 128) : EReal :=
  (lnRow x w b q + dotRow c W q + cb q) * Ideal.logistic (lnRow x w b q + dotRow c W q + cb q)

/-- The second dense stage at column q of a row: the aggregated row projected, normalised, scaled by γ, shifted by β,
    added onto the input row. -/
def postRow (z x : Fin 128 → EReal) (W : Fin 128 → Fin 128 → EReal) (cb w b g be : Fin 128 → EReal) (q : Fin 128) : EReal :=
  x q + (lnRow (fun j => dotRow z W j + cb j) w b q * g q + be q)

end Cert.GraphBlock

end
-- ==== Proof.KPay.lean ====
/-
  The two kernel bodies at one entry, at the ideal values.

  Each body works on a block of 4096 rows; what it stores at entry (r, q) of the block depends only on row r of the
  row-tiled operands (and on the whole weight matrix and parameter rows).  The first body's stored value is the first
  dense stage of row r (layer normalisation, plus the conditioning row against the 128 × 128 weights, plus the bias,
  through x ↦ x · σ(x)); the second body's is the second dense stage (the aggregated row against the weights plus the
  bias, normalised, scaled, shifted, added to the input row).  The rounding to bf16 before each matrix product is the
  identity on the extended reals, a product accumulated into zeros is the plain sum over the shared coordinate, and a
  lane reduction is the sum of the row.
-/
import proofs.«160971_j18227841204838_1_alg».proof.Proof.Gen.KernelIdeal.Skeleton
import proofs.«160971_j18227841204838_1_alg».proof.Proof.Rows

noncomputable section

open scoped BigOperators

namespace Cert.KernelIdeal.Hand

open Cert.KernelIdeal Cert.KernelIdeal.Gen Cert.GraphBlock
open Idealize.ShloMosaic Idealize.ShloMosaic.ValueIdx

/-- A scalar literal at the ideal values is the word's extended real. -/
theorem scalar_ofBits (φ : FTy) (b : BitVec φ.bits) : Scalar.ofBits (F := Ideal) φ b = Ideal.ofBits φ b := rfl

theorem lhs_coord0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl

theorem rhs_coord1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The block's matrix product into a zero accumulator, at entry (r, q): the sum over the shared coordinate k of the
    left operand's (r, k) times the right operand's (k, q). -/
theorem matmul_entry {φ₁ φ₂ : FTy} (l : FVec Ideal S4096x128 φ₁) (w : FVec Ideal S128x128 φ₂) (r : Fin 4096) (q : Fin 128) :
    matmul dot_S4096x128_S128x128_S4096x128_1_0_0_1_n_n none l w (constant S4096x128 .f32 0x00000000#32) (ix2 r q)
      = ∑ k : Fin 128, l (ix2 r k) * w (ix2 k q) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r q) ((contrEquiv1 dot_S4096x128_S128x128_S4096x128_1_0_0_1_n_n 128 rfl rfl).symm k) = ix2 r k := funext fun a => Fin.ext (by
    match a with
    | ⟨0, _⟩ => exact lhs_coord0 _ _
    | ⟨1, _⟩ => exact (dot_S4096x128_S128x128_S4096x128_1_0_0_1_n_n.lhsIdx_val_of_single rfl _ _).trans hk)
  have er : dot_S4096x128_S128x128_S4096x128_1_0_0_1_n_n.rhsIdx (ix2 r q) ((contrEquiv1 dot_S4096x128_S128x128_S4096x128_1_0_0_1_n_n 128 rfl rfl).symm k) = ix2 k q := funext fun a => Fin.ext (by
    match a with
    | ⟨0, _⟩ => exact (dot_S4096x128_S128x128_S4096x128_1_0_0_1_n_n.rhsIdx_val_of_single rfl _ _).trans hk
    | ⟨1, _⟩ => exact rhs_coord1 _ _)
  rw [el, er]

/-- A lane sum over a block's columns, read at row r: the sum of the row's 128 entries. -/
theorem rowSum_blk (src : FVec Ideal S4096x128 .f32) (r : Fin 4096) :
    Ideal.reduceAdd reduces_S4096x128_S4096 src (ix1 r) = ∑ k : Fin 128, src (ix2 r k) := by
  refine (Ideal.reduceAdd_single reduces_S4096x128_S4096 src (ix1 r)).trans ?_
  refine Finset.sum_congr rfl fun k _ => congrArg src ?_
  funext ax
  apply Fin.ext
  match ax with
  | ⟨0, _⟩ => rfl
  | ⟨1, _⟩ => rfl

/-- The first body's stored value at entry (r, q) of the block is the first dense stage of row r. -/
theorem prep_pay (v0 : Vec Ideal S4096x128 .f32) (v19 v23 : Vec Ideal S1x128 .f32) (v27 : Vec Ideal S4096x128 .f32)
    (v29 : Vec Ideal S128x128 .f32) (v33 : Vec Ideal S1x128 .f32) (r : Fin 4096) (q : Fin 128) :
    k0_pay1 (F := Ideal) v0 v19 v23 v27 v29 v33 (ix2 r q)
      = prepRow (fun k => v0 (ix2 r k)) (fun k => v27 (ix2 r k)) (fun k j => v29 (ix2 k j))
          (fun j => v33 (ix2 (0 : Fin 1) j)) (fun j => v19 (ix2 (0 : Fin 1) j)) (fun j => v23 (ix2 (0 : Fin 1) j)) q := by
  unfold k0_pay1 prepRow lnRow rowMean dotRow
  delta multiReduction
  simp only [mulf_apply, addf_apply, subf_apply, divf_apply, logistic, rsqrt, broadcast_apply, bcast_col, cast_col, Ideal.reduceAdd_def, rowSum_blk,
    shapeCast_self, broadcastTo_1b_ab_apply, matmul_entry, truncf_apply, Ideal.logistic_def, Ideal.rsqrt_def, scalar_ofBits]

/-- The second body's stored value at entry (r, q) of the block is the second dense stage of row r. -/
theorem post_pay (z : Vec Ideal S4096x128 .f32) (W : Vec Ideal S128x128 .f32) (cb w b g be : Vec Ideal S1x128 .f32)
    (x : Vec Ideal S4096x128 .f32) (r : Fin 4096) (q : Fin 128) :
    k1_pay1 (F := Ideal) (k1_pay2 z W cb w b g) be x (ix2 r q)
      = postRow (fun k => z (ix2 r k)) (fun k => x (ix2 r k)) (fun k j => W (ix2 k j))
          (fun j => cb (ix2 (0 : Fin 1) j)) (fun j => w (ix2 (0 : Fin 1) j)) (fun j => b (ix2 (0 : Fin 1) j))
          (fun j => g (ix2 (0 : Fin 1) j)) (fun j => be (ix2 (0 : Fin 1) j)) q := by
  unfold k1_pay1 k1_pay2 postRow lnRow rowMean dotRow
  delta multiReduction
  simp only [mulf_apply, addf_apply, subf_apply, divf_apply, rsqrt, broadcast_apply, bcast_col, cast_col, Ideal.reduceAdd_def, rowSum_blk,
    shapeCast_self, broadcastTo_1b_ab_apply, matmul_entry, truncf_apply, Ideal.rsqrt_def, scalar_ofBits]

end Cert.KernelIdeal.Hand

end
-- ==== Proof.KValue0.lean ====
/-
  From blocks to arrays.  Each of the two row-tiled kernels runs at 16 grid points; at point t it reads rows
  4096·t … 4096·t + 4095 of its two row-tiled operands (and the whole weight matrix and parameter rows, whose block index
  does not move) and writes back the same rows of its output.  What point t writes back is therefore rows
  4096·t … 4096·t + 4095 of ONE whole-array function of the operands as the kernel finds them — the dense stage applied
  row by row — and, the sixteen blocks covering every row, the output array ends holding that function.
  Everything here is stated for arbitrary contents `V` of the buffers at the kernel's entry.
-/
import proofs.«160971_j18227841204838_1_alg».proof.Proof.Gen.KernelIdeal.Frame
import proofs.«160971_j18227841204838_1_alg».proof.Proof.KPay
import Idealize.ShloMosaic.Lib.Pipeline.Value

set_option maxRecDepth 16384

noncomputable section

open scoped BigOperators

namespace Cert.KernelIdeal.Hand

open Cert.KernelIdeal Cert.KernelIdeal.Gen Cert.GraphBlock
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first dense stage applied to every row of whole arrays: entry (p, q) is the stage of row p at column q. -/
def prepArr (X C : S65536x128.Idx → EReal) (W : S128x128.Idx → EReal) (cb w b : S1x128.Idx → EReal) :
    S65536x128.Idx → EReal := fun i =>
  prepRow (fun k => X (ix2 (⟨(i 0).val, idx2_lt0 i⟩ : Fin 65536) k)) (fun k => C (ix2 (⟨(i 0).val, idx2_lt0 i⟩ : Fin 65536) k))
    (fun k j => W (ix2 k j)) (fun j => cb (ix2 (0 : Fin 1) j)) (fun j => w (ix2 (0 : Fin 1) j)) (fun j => b (ix2 (0 : Fin 1) j))
    (⟨(i 1).val, idx2_lt1 i⟩ : Fin 128)

theorem prepArr_ix2 (X C : S65536x128.Idx → EReal) (W : S128x128.Idx → EReal) (cb w b : S1x128.Idx → EReal)
    (p : Fin 65536) (q : Fin 128) :
    prepArr X C W cb w b (ix2 p q)
      = prepRow (fun k => X (ix2 p k)) (fun k => C (ix2 p k)) (fun k j => W (ix2 k j)) (fun j => cb (ix2 (0 : Fin 1) j))
          (fun j => w (ix2 (0 : Fin 1) j)) (fun j => b (ix2 (0 : Fin 1) j)) q := rfl

/-- Row r of the block at grid point t is row 4096·t + r of the array. -/
def rowAt (t : Fin grid0.N) (r : Fin 4096) : Fin 65536 :=
  ⟨t.val * 4096 + r.val, by have h : t.val < 16 := lt_of_lt_of_eq t.isLt N_0; have := r.isLt; omega⟩

/-! ## The first kernel -/

/-- The printed index maps over the grid: the row-tiled windows sit at block (t, 0), the others at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem emb0_0 (t : Fin cfg0.N) (r : Fin 4096) (k : Fin 128) :
    ((cfg0.win 0).blk t).view.emb (ix2 r k) = ix2 (rowAt t r) k := by
  obtain ⟨e0, e1, -⟩ := idx_facts0 t
  funext a; apply Fin.ext
  match a with
  | ⟨0, _⟩ => show win0_0.index t (0 : Fin 2) * 4096 + 1 * r.val = t.val * 4096 + r.val; rw [e0]; omega
  | ⟨1, _⟩ => show win0_0.index t (1 : Fin 2) * 128 + 1 * k.val = k.val; rw [e1]; omega

theorem emb0_1 (t : Fin cfg0.N) (r : Fin 4096) (k : Fin 128) :
    ((cfg0.win 1).blk t).view.emb (ix2 r k) = ix2 (rowAt t r) k := by
  obtain ⟨-, -, e0, e1, -⟩ := idx_facts0 t
  funext a; apply Fin.ext
  match a with
  | ⟨0, _⟩ => show win0_1.index t (0 : Fin 2) * 4096 + 1 * r.val = t.val * 4096 + r.val; rw [e0]; omega
  | ⟨1, _⟩ => show win0_1.index t (1 : Fin 2) * 128 + 1 * k.val = k.val; rw [e1]; omega

theorem emb0_6 (t : Fin cfg0.N) (r : Fin 4096) (k : Fin 128) :
    ((cfg0.win 6).blk t).view.emb (ix2 r k) = ix2 (rowAt t r) k := by
  obtain ⟨-, -, -, -, e0, e1, -⟩ := idx_facts0 t
  funext a; apply Fin.ext
  match a with
  | ⟨0, _⟩ => show win0_6.index t (0 : Fin 2) * 4096 + 1 * r.val = t.val * 4096 + r.val; rw [e0]; omega
  | ⟨1, _⟩ => show win0_6.index t (1 : Fin 2) * 128 + 1 * k.val = k.val; rw [e1]; omega

theorem emb0_2 (t : Fin cfg0.N) (k j : Fin 128) :
    ((cfg0.win 2).blk t).view.emb (ix2 k j) = ix2 k j := by
  obtain ⟨-, -, -, -, -, -, e0, e1, -⟩ := idx_facts0 t
  funext a; apply Fin.ext
  match a with
  | ⟨0, _⟩ => show win0_2.index t (0 : Fin 2) * 128 + 1 * k.val = k.val; rw [e0]; omega
  | ⟨1, _⟩ => show win0_2.index t (1 : Fin 2) * 128 + 1 * j.val = j.val; rw [e1]; omega

theorem emb0_3 (t : Fin cfg0.N) (u : Fin 1) (j : Fin 128) :
    ((cfg0.win 3).blk t).view.emb (ix2 u j) = ix2 u j := by
  obtain ⟨-, -, -, -, -, -, -, -, e0, e1, -⟩ := idx_facts0 t
  funext a; apply Fin.ext
  match a with
  | ⟨0, _⟩ => show win0_3.index t (0 : Fin 2) * 1 + 1 * u.val = u.val; rw [e0]; omega
  | ⟨1, _⟩ => show win0_3.index t (1 : Fin 2) * 128 + 1 * j.val = j.val; rw [e1]; omega

theorem emb0_4 (t : Fin cfg0.N) (u : Fin 1) (j : Fin 128) :
    ((cfg0.win 4).blk t).view.emb (ix2 u j) = ix2 u j := by
  obtain ⟨-, -, -, -, -, -, -, -, -, -, e0, e1, -⟩ := idx_facts0 t
  funext a; apply Fin.ext
  match a with
  | ⟨0, _⟩ => show win0_4.index t (0 : Fin 2) * 1 + 1 * u.val = u.val; rw [e0]; omega
  | ⟨1, _⟩ => show win0_4.index t (1 : Fin 2) * 128 + 1 * j.val = j.val; rw [e1]; omega

theorem emb0_5 (t : Fin cfg0.N) (u : Fin 1) (j : Fin 128) :
    ((cfg0.win 5).blk t).view.emb (ix2 u j) = ix2 u j := by
  obtain ⟨-, -, -, -, -, -, -, -, -, -, -, -, e0, e1⟩ := idx_facts0 t
  funext a; apply Fin.ext
  match a with
  | ⟨0, _⟩ => show win0_5.index t (0 : Fin 2) * 1 + 1 * u.val = u.val; rw [e0]; omega
  | ⟨1, _⟩ => show win0_5.index t (1 : Fin 2) * 128 + 1 * j.val = j.val; rw [e1]; omega

/-- Each input block at point t, read at an entry, is the array as the kernel finds it at the entry's place. -/
theorem iblk0_0 (c : Dev nD) (t : Fin cfg0.N) (r : Fin 4096) (k : Fin 128) :
    iblk0 V c 0 t (ix2 r k) = (V c main_arg0 : S65536x128.Idx → EReal) (ix2 (rowAt t r) k) := by
  unfold iblk0; rw [View.read_apply, emb0_0]; rfl
theorem iblk0_1 (c : Dev nD) (t : Fin cfg0.N) (r : Fin 4096) (k : Fin 128) :
    iblk0 V c 1 t (ix2 r k) = (V c main_arg4 : S65536x128.Idx → EReal) (ix2 (rowAt t r) k) := by
  unfold iblk0; rw [View.read_apply, emb0_1]; rfl
theorem iblk0_2 (c : Dev nD) (t : Fin cfg0.N) (k j : Fin 128) :
    iblk0 V c 2 t (ix2 k j) = (V c main_arg13 : S128x128.Idx → EReal) (ix2 k j) := by
  unfold iblk0; rw [View.read_apply, emb0_2]; rfl
theorem iblk0_3 (c : Dev nD) (t : Fin cfg0.N) (u : Fin 1) (j : Fin 128) :
    iblk0 V c 3 t (ix2 u j) = (V c main_v0 : S1x128.Idx → EReal) (ix2 u j) := by
  unfold iblk0; rw [View.read_apply, emb0_3]; rfl
theorem iblk0_4 (c : Dev nD) (t : Fin cfg0.N) (u : Fin 1) (j : Fin 128) :
    iblk0 V c 4 t (ix2 u j) = (V c main_v1 : S1x128.Idx → EReal) (ix2 u j) := by
  unfold iblk0; rw [View.read_apply, emb0_4]; rfl
theorem iblk0_5 (c : Dev nD) (t : Fin cfg0.N) (u : Fin 1) (j : Fin 128) :
    iblk0 V c 5 t (ix2 u j) = (V c main_v2 : S1x128.Idx → EReal) (ix2 u j) := by
  unfold iblk0; rw [View.read_apply, emb0_5]; rfl

/-- What the first kernel's arrays hold after it, where its output is concerned: the first dense stage of the entry
    contents, row by row. -/
abbrev prepOf (c : Dev nD) : S65536x128.Idx → EReal :=
  prepArr (V c main_arg0) (V c main_arg4) (V c main_arg13) (V c main_v0) (V c main_v1) (V c main_v2)

/-- What point t writes back is block t of the first dense stage of the entry contents. -/
theorem flushed0 (c : Dev nD) (t : Fin cfg0.N) :
    (dat0 V c).flushed 6 t = ((cfg0.win 6).blk t).view.read (Elt Ideal) (prepOf V c) := by
  show (cfg0.win 6).cut (grid0.coords t) ((dat0 V c).after 6 t) = _
  rw [after0_6]
  unfold out0_6
  rw [View.canon_unit_zero hz]
  simp only [View.ld_unit_zero (S := S4096x128) hz, View.ld_unit_zero (S := S1x128) hz, View.ld_unit_zero (S := S128x128) hz]
  funext j
  obtain ⟨r, q, rfl⟩ : ∃ (r : Fin 4096) (q : Fin 128), j = ix2 r q := ⟨j 0, j 1, eq_ix2 j⟩
  show k0_pay1 (iblk0 V c 0 t) (iblk0 V c 4 t) (iblk0 V c 5 t) (iblk0 V c 1 t) (iblk0 V c 2 t) (iblk0 V c 3 t) (ix2 r q)
    = prepOf V c (((cfg0.win 6).blk t).view.emb (ix2 r q))
  rw [emb0_6]
  refine ((prep_pay (iblk0 V c 0 t) (iblk0 V c 4 t) (iblk0 V c 5 t) (iblk0 V c 1 t) (iblk0 V c 2 t) (iblk0 V c 3 t) r q).trans ?_).trans
    (prepArr_ix2 (V c main_arg0) (V c main_arg4) (V c main_arg13) (V c main_v0) (V c main_v1) (V c main_v2) (rowAt t r) q).symm
  simp only [iblk0_0, iblk0_1, iblk0_2, iblk0_3, iblk0_4, iblk0_5]

/-- An index of the output array is in point t's block iff its row is among the block's 4096 rows. -/
theorem mem_blk0 (t : Fin cfg0.N) (i : S65536x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v8).slice (win0_6.rect t)).set ↔ _
  rw [View.set_slice_whole, Rect.mem_set_unit]
  exact Iff.rfl

/-- The sixteen blocks cover the output array: row p lies in the block of point p / 4096. -/
theorem cover0 (i : S65536x128.Idx) : ∃ t : Fin cfg0.N, (cfg0.win 6).flush t = true ∧ i ∈ ((cfg0.win 6).blk t).view.set := by
  have hi0 : (i 0).val < 65536 := idx2_lt0 i
  have hi1 : (i 1).val < 128 := idx2_lt1 i
  let t : Fin cfg0.N := ⟨(i 0).val / 4096, by show _ < grid0.N; rw [N_0]; omega⟩
  obtain ⟨-, -, -, -, e0, e1, -⟩ := idx_facts0 t
  have ht : t.val = (i 0).val / 4096 := rfl
  refine ⟨t, flush0_6 t, ?_⟩
  rw [mem_blk0]
  intro a
  match a with
  | ⟨0, _⟩ => show win0_6.index t (0 : Fin 2) * 4096 ≤ (i 0).val ∧ (i 0).val < win0_6.index t (0 : Fin 2) * 4096 + 4096; rw [e0, ht]; omega
  | ⟨1, _⟩ => show win0_6.index t (1 : Fin 2) * 128 ≤ (i 1).val ∧ (i 1).val < win0_6.index t (1 : Fin 2) * 128 + 128; rw [e1]; omega

/-- After the first kernel its output array holds the first dense stage of the entry contents, row by row. -/
theorem final0 (c : Dev nD) : (dat0 V c).arrAt 6 cfg0.N = prepOf V c :=
  (dat0 V c).arrAt_eq_of_cover 6 (prepOf V c) (fun t _ => flushed0 V c t) cover0

end Cert.KernelIdeal.Hand

end
-- ==== Proof.KValue1.lean ====
/-
  From blocks to arrays, for the second row-tiled kernel: at grid point t it reads rows 4096·t … 4096·t + 4095 of the
  aggregated array and of the input array (and the whole weight matrix and five parameter rows) and writes back the same
  rows of the result.  What point t writes back is block t of the second dense stage applied row by row to the arrays
  as the kernel finds them, and the sixteen blocks cover the result array.  Stated for arbitrary entry contents `V`.
-/
import proofs.«160971_j18227841204838_1_alg».proof.Proof.Gen.KernelIdeal.Frame
import proofs.«160971_j18227841204838_1_alg».proof.Proof.KPay
import Idealize.ShloMosaic.Lib.Pipeline.Value

set_option maxRecDepth 16384

noncomputable section

open scoped BigOperators

namespace Cert.KernelIdeal.Hand

open Cert.KernelIdeal Cert.KernelIdeal.Gen Cert.GraphBlock
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The second dense stage applied to every row of whole arrays: entry (p, q) is the stage of row p at column q. -/
def postArr (Z X : S65536x128.Idx → EReal) (W : S128x128.Idx → EReal) (cb w b g be : S1x128.Idx → EReal) :
    S65536x128.Idx → EReal := fun i =>
  postRow (fun k => Z (ix2 (⟨(i 0).val, idx2_lt0 i⟩ : Fin 65536) k)) (fun k => X (ix2 (⟨(i 0).val, idx2_lt0 i⟩ : Fin 65536) k))
    (fun k j => W (ix2 k j)) (fun j => cb (ix2 (0 : Fin 1) j)) (fun j => w (ix2 (0 : Fin 1) j)) (fun j => b (ix2 (0 : Fin 1) j))
    (fun j => g (ix2 (0 : Fin 1) j)) (fun j => be (ix2 (0 : Fin 1) j)) (⟨(i 1).val, idx2_lt1 i⟩ : Fin 128)

theorem postArr_ix2 (Z X : S65536x128.Idx → EReal) (W : S128x128.Idx → EReal) (cb w b g be : S1x128.Idx → EReal)
    (p : Fin 65536) (q : Fin 128) :
    postArr Z X W cb w b g be (ix2 p q)
      = postRow (fun k => Z (ix2 p k)) (fun k => X (ix2 p k)) (fun k j => W (ix2 k j)) (fun j => cb (ix2 (0 : Fin 1) j))
          (fun j => w (ix2 (0 : Fin 1) j)) (fun j => b (ix2 (0 : Fin 1) j)) (fun j => g (ix2 (0 : Fin 1) j))
          (fun j => be (ix2 (0 : Fin 1) j)) q := rfl

/-- Row r of the block at grid point t is row 4096·t + r of the array. -/
def rowAt1 (t : Fin grid1.N) (r : Fin 4096) : Fin 65536 :=
  ⟨t.val * 4096 + r.val, by have h : t.val < 16 := lt_of_lt_of_eq t.isLt N_1; have := r.isLt; omega⟩

/-- The printed index maps over the grid: the row-tiled windows sit at block (t, 0), the others at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem emb1_0 (t : Fin cfg1.N) (r : Fin 4096) (k : Fin 128) :
    ((cfg1.win 0).blk t).view.emb (ix2 r k) = ix2 (rowAt1 t r) k := by
  have e0 := (idx_facts1 t).1
  have e1 := (idx_facts1 t).2.1
  funext a; apply Fin.ext
  match a with
  | ⟨0, _⟩ => show win1_0.index t (0 : Fin 2) * 4096 + 1 * r.val = t.val * 4096 + r.val; rw [e0]; omega
  | ⟨1, _⟩ => show win1_0.index t (1 : Fin 2) * 128 + 1 * k.val = k.val; rw [e1]; omega

theorem emb1_1 (t : Fin cfg1.N) (r : Fin 4096) (k : Fin 128) :
    ((cfg1.win 1).blk t).view.emb (ix2 r k) = ix2 (rowAt1 t r) k := by
  have e0 := (idx_facts1 t).2.2.1
  have e1 := (idx_facts1 t).2.2.2.1
  funext a; apply Fin.ext
  match a with
  | ⟨0, _⟩ => show win1_1.index t (0 : Fin 2) * 4096 + 1 * r.val = t.val * 4096 + r.val; rw [e0]; omega
  | ⟨1, _⟩ => show win1_1.index t (1 : Fin 2) * 128 + 1 * k.val = k.val; rw [e1]; omega

theorem emb1_8 (t : Fin cfg1.N) (r : Fin 4096) (k : Fin 128) :
    ((cfg1.win 8).blk t).view.emb (ix2 r k) = ix2 (rowAt1 t r) k := by
  have e0 := (idx_facts1 t).2.2.2.2.1
  have e1 := (idx_facts1 t).2.2.2.2.2.1
  funext a; apply Fin.ext
  match a with
  | ⟨0, _⟩ => show win1_8.index t (0 : Fin 2) * 4096 + 1 * r.val = t.val * 4096 + r.val; rw [e0]; omega
  | ⟨1, _⟩ => show win1_8.index t (1 : Fin 2) * 128 + 1 * k.val = k.val; rw [e1]; omega

theorem emb1_2 (t : Fin cfg1.N) (k j : Fin 128) :
    ((cfg1.win 2).blk t).view.emb (ix2 k j) = ix2 k j := by
  have e0 := (idx_facts1 t).2.2.2.2.2.2.1
  have e1 := (idx_facts1 t).2.2.2.2.2.2.2.1
  funext a; apply Fin.ext
  match a with
  | ⟨0, _⟩ => show win1_2.index t (0 : Fin 2) * 128 + 1 * k.val = k.val; rw [e0]; omega
  | ⟨1, _⟩ => show win1_2.index t (1 : Fin 2) * 128 + 1 * j.val = j.val; rw [e1]; omega

theorem emb1_3 (t : Fin cfg1.N) (u : Fin 1) (j : Fin 128) :
    ((cfg1.win 3).blk t).view.emb (ix2 u j) = ix2 u j := by
  have e0 := (idx_facts1 t).2.2.2.2.2.2.2.2.1
  have e1 := (idx_facts1 t).2.2.2.2.2.2.2.2.2.1
  funext a; apply Fin.ext
  match a with
  | ⟨0, _⟩ => show win1_3.index t (0 : Fin 2) * 1 + 1 * u.val = u.val; rw [e0]; omega
  | ⟨1, _⟩ => show win1_3.index t (1 : Fin 2) * 128 + 1 * j.val = j.val; rw [e1]; omega

theorem emb1_4 (t : Fin cfg1.N) (u : Fin 1) (j : Fin 128) :
    ((cfg1.win 4).blk t).view.emb (ix2 u j) = ix2 u j := by
  have e0 := (idx_facts1 t).2.2.2.2.2.2.2.2.2.2.1
  have e1 := (idx_facts1 t).2.2.2.2.2.2.2.2.2.2.2.1
  funext a; apply Fin.ext
  match a with
  | ⟨0, _⟩ => show win1_4.index t (0 : Fin 2) * 1 + 1 * u.val = u.val; rw [e0]; omega
  | ⟨1, _⟩ => show win1_4.index t (1 : Fin 2) * 128 + 1 * j.val = j.val; rw [e1]; omega

theorem emb1_5 (t : Fin cfg1.N) (u : Fin 1) (j : Fin 128) :
    ((cfg1.win 5).blk t).view.emb (ix2 u j) = ix2 u j := by
  have e0 := (idx_facts1 t).2.2.2.2.2.2.2.2.2.2.2.2.1
  have e1 := (idx_facts1 t).2.2.2.2.2.2.2.2.2.2.2.2.2.1
  funext a; apply Fin.ext
  match a with
  | ⟨0, _⟩ => show win1_5.index t (0 : Fin 2) * 1 + 1 * u.val = u.val; rw [e0]; omega
  | ⟨1, _⟩ => show win1_5.index t (1 : Fin 2) * 128 + 1 * j.val = j.val; rw [e1]; omega

theorem emb1_6 (t : Fin cfg1.N) (u : Fin 1) (j : Fin 128) :
    ((cfg1.win 6).blk t).view.emb (ix2 u j) = ix2 u j := by
  have e0 := (idx_facts1 t).2.2.2.2.2.2.2.2.2.2.2.2.2.2.1
  have e1 := (idx_facts1 t).2.2.2.2.2.2.2.2.2.2.2.2.2.2.2.1
  funext a; apply Fin.ext
  match a with
  | ⟨0, _⟩ => show win1_6.index t (0 : Fin 2) * 1 + 1 * u.val = u.val; rw [e0]; omega
  | ⟨1, _⟩ => show win1_6.index t (1 : Fin 2) * 128 + 1 * j.val = j.val; rw [e1]; omega

theorem emb1_7 (t : Fin cfg1.N) (u : Fin 1) (j : Fin 128) :
    ((cfg1.win 7).blk t).view.emb (ix2 u j) = ix2 u j := by
  have e0 := (idx_facts1 t).2.2.2.2.2.2.2.2.2.2.2.2.2.2.2.2.1
  have e1 := (idx_facts1 t).2.2.2.2.2.2.2.2.2.2.2.2.2.2.2.2.2
  funext a; apply Fin.ext
  match a with
  | ⟨0, _⟩ => show win1_7.index t (0 : Fin 2) * 1 + 1 * u.val = u.val; rw [e0]; omega
  | ⟨1, _⟩ => show win1_7.index t (1 : Fin 2) * 128 + 1 * j.val = j.val; rw [e1]; omega

/-- Each input block at point t, read at an entry, is the array as the kernel finds it at the entry's place. -/
theorem iblk1_0 (c : Dev nD) (t : Fin cfg1.N) (r : Fin 4096) (k : Fin 128) :
    iblk1 V c 0 t (ix2 r k) = (V c main_v21 : S65536x128.Idx → EReal) (ix2 (rowAt1 t r) k) := by
  unfold iblk1; rw [View.read_apply, emb1_0]; rfl
theorem iblk1_1 (c : Dev nD) (t : Fin cfg1.N) (r : Fin 4096) (k : Fin 128) :
    iblk1 V c 1 t (ix2 r k) = (V c main_arg0 : S65536x128.Idx → EReal) (ix2 (rowAt1 t r) k) := by
  unfold iblk1; rw [View.read_apply, emb1_1]; rfl
theorem iblk1_2 (c : Dev nD) (t : Fin cfg1.N) (k j : Fin 128) :
    iblk1 V c 2 t (ix2 k j) = (V c main_arg11 : S128x128.Idx → EReal) (ix2 k j) := by
  unfold iblk1; rw [View.read_apply, emb1_2]; rfl
theorem iblk1_3 (c : Dev nD) (t : Fin cfg1.N) (u : Fin 1) (j : Fin 128) :
    iblk1 V c 3 t (ix2 u j) = (V c main_v5 : S1x128.Idx → EReal) (ix2 u j) := by
  unfold iblk1; rw [View.read_apply, emb1_3]; rfl
theorem iblk1_4 (c : Dev nD) (t : Fin cfg1.N) (u : Fin 1) (j : Fin 128) :
    iblk1 V c 4 t (ix2 u j) = (V c main_v3 : S1x128.Idx → EReal) (ix2 u j) := by
  unfold iblk1; rw [View.read_apply, emb1_4]; rfl
theorem iblk1_5 (c : Dev nD) (t : Fin cfg1.N) (u : Fin 1) (j : Fin 128) :
    iblk1 V c 5 t (ix2 u j) = (V c main_v4 : S1x128.Idx → EReal) (ix2 u j) := by
  unfold iblk1; rw [View.read_apply, emb1_5]; rfl
theorem iblk1_6 (c : Dev nD) (t : Fin cfg1.N) (u : Fin 1) (j : Fin 128) :
    iblk1 V c 6 t (ix2 u j) = (V c main_v6 : S1x128.Idx → EReal) (ix2 u j) := by
  unfold iblk1; rw [View.read_apply, emb1_6]; rfl
theorem iblk1_7 (c : Dev nD) (t : Fin cfg1.N) (u : Fin 1) (j : Fin 128) :
    iblk1 V c 7 t (ix2 u j) = (V c main_v7 : S1x128.Idx → EReal) (ix2 u j) := by
  unfold iblk1; rw [View.read_apply, emb1_7]; rfl

/-- The second dense stage of the second kernel's entry contents, row by row. -/
abbrev postOf (c : Dev nD) : S65536x128.Idx → EReal :=
  postArr (V c main_v21) (V c main_arg0) (V c main_arg11) (V c main_v5) (V c main_v3) (V c main_v4) (V c main_v6) (V c main_v7)

/-- What point t writes back is block t of the second dense stage of the entry contents. -/
theorem flushed1 (c : Dev nD) (t : Fin cfg1.N) :
    (dat1 V c).flushed 8 t = ((cfg1.win 8).blk t).view.read (Elt Ideal) (postOf V c) := by
  show (cfg1.win 8).cut (grid1.coords t) ((dat1 V c).after 8 t) = _
  rw [after1_8]
  unfold out1_8
  rw [View.canon_unit_zero hz1]
  simp only [View.ld_unit_zero (S := S4096x128) hz1, View.ld_unit_zero (S := S1x128) hz1, View.ld_unit_zero (S := S128x128) hz1]
  funext j
  obtain ⟨r, q, rfl⟩ : ∃ (r : Fin 4096) (q : Fin 128), j = ix2 r q := ⟨j 0, j 1, eq_ix2 j⟩
  show k1_pay1 (k1_pay2 (iblk1 V c 0 t) (iblk1 V c 2 t) (iblk1 V c 3 t) (iblk1 V c 4 t) (iblk1 V c 5 t) (iblk1 V c 6 t)) (iblk1 V c 7 t) (iblk1 V c 1 t) (ix2 r q)
    = postOf V c (((cfg1.win 8).blk t).view.emb (ix2 r q))
  rw [emb1_8]
  refine ((post_pay (iblk1 V c 0 t) (iblk1 V c 2 t) (iblk1 V c 3 t) (iblk1 V c 4 t) (iblk1 V c 5 t) (iblk1 V c 6 t) (iblk1 V c 7 t) (iblk1 V c 1 t) r q).trans ?_).trans
    (postArr_ix2 (V c main_v21) (V c main_arg0) (V c main_arg11) (V c main_v5) (V c main_v3) (V c main_v4) (V c main_v6) (V c main_v7) (rowAt1 t r) q).symm
  simp only [iblk1_0, iblk1_1, iblk1_2, iblk1_3, iblk1_4, iblk1_5, iblk1_6, iblk1_7]

/-- An index of the result array is in point t's block iff its row is among the block's 4096 rows. -/
theorem mem_blk1 (t : Fin cfg1.N) (i : S65536x128.Idx) :
    i ∈ ((cfg1.win 8).blk t).view.set ↔ ∀ a : Fin 2, win1_8.index t a * S4096x128.size a ≤ (i a).val ∧ (i a).val < win1_8.index t a * S4096x128.size a + S4096x128.size a := by
  show i ∈ ((View.whole main_v22).slice (win1_8.rect t)).set ↔ _
  rw [View.set_slice_whole, Rect.mem_set_unit]
  exact Iff.rfl

/-- The sixteen blocks cover the result array: row p lies in the block of point p / 4096. -/
theorem cover1 (i : S65536x128.Idx) : ∃ t : Fin cfg1.N, (cfg1.win 8).flush t = true ∧ i ∈ ((cfg1.win 8).blk t).view.set := by
  have hi0 : (i 0).val < 65536 := idx2_lt0 i
  have hi1 : (i 1).val < 128 := idx2_lt1 i
  let t : Fin cfg1.N := ⟨(i 0).val / 4096, by show _ < grid1.N; rw [N_1]; omega⟩
  have e0 := (idx_facts1 t).2.2.2.2.1
  have e1 := (idx_facts1 t).2.2.2.2.2.1
  have ht : t.val = (i 0).val / 4096 := rfl
  refine ⟨t, flush1_8 t, ?_⟩
  rw [mem_blk1]
  intro a
  match a with
  | ⟨0, _⟩ => show win1_8.index t (0 : Fin 2) * 4096 ≤ (i 0).val ∧ (i 0).val < win1_8.index t (0 : Fin 2) * 4096 + 4096; rw [e0, ht]; omega
  | ⟨1, _⟩ => show win1_8.index t (1 : Fin 2) * 128 ≤ (i 1).val ∧ (i 1).val < win1_8.index t (1 : Fin 2) * 128 + 128; rw [e1]; omega

/-- After the second kernel its result array holds the second dense stage of the entry contents, row by row. -/
theorem final1 (c : Dev nD) : (dat1 V c).arrAt 8 cfg1.N = postOf V c :=
  (dat1 V c).arrAt_eq_of_cover 8 (postOf V c) (fun t _ => flushed1 V c t) cover1

end Cert.KernelIdeal.Hand

end
-- ==== Proof.KArr.lean ====
/-
  The idealized kernel program's result as one function of its fifteen arguments.

  The buffer contents are folded through the program's four segments.  The eight reshapes turn each parameter vector
  into a one-row array.  The first kernel leaves in its output array the first dense stage of the input and
  conditioning arrays, row by row.  The sixteen host operations that follow are the sparse aggregate: the source-row
  indices wrapped where negative, the first stage's rows gathered at them, each gathered row scaled by its edge value,
  and the scaled rows summed into the destination rows; it is carried here as ONE function `aggregate` of the first
  stage's array and the three edge arrays, never opened.  The second kernel leaves in the result array the second
  dense stage of the aggregate and the input array, row by row.  No segment writes an argument.
-/
import proofs.«160971_j18227841204838_1_alg».proof.Proof.Gen.KernelIdeal.Frame
import proofs.«160971_j18227841204838_1_alg».proof.Proof.KValue0
import proofs.«160971_j18227841204838_1_alg».proof.Proof.KValue1
import Idealize.ShloMosaic.Lib.StableHlo.Run

set_option maxRecDepth 16384

noncomputable section

namespace Cert.KernelIdeal.Hand

open Cert.KernelIdeal Cert.KernelIdeal.Gen Cert.GraphBlock
open Idealize.ShloMosaic Idealize.ShloMosaic.TcCoe Idealize.SL.Sem Idealize.ShloMosaic.ValueIdx Idealize.ShloMosaic.StableHlo
open Idealize.ShloMosaic.Pipeline (Dat)

/-- A parameter vector as a one-row array. -/
def rowOf (x : S128.Idx → EReal) : S1x128.Idx → EReal := shapeCast S1x128 x shapeCasts_S128_S1x128

/-- The sparse aggregate: for each edge, the source row of `h` (its index wrapped where negative) scaled by the edge's
    value, summed into the edge's destination row of a zero array. -/
def aggregate (h : (⟨S65536x128, .f32⟩ : BufTy).Contents (Elt Ideal)) (dst src : (⟨S1048576, .i32⟩ : BufTy).Contents (Elt Ideal))
    (vals : (⟨S1048576, .f32⟩ : BufTy).Contents (Elt Ideal)) : (⟨S65536x128, .f32⟩ : BufTy).Contents (Elt Ideal) :=
  Host.scatterAdd scatter_S65536x128_S1048576x1_S1048576x128_1_0_0_1
    (broadcastInDim S65536x128 ![] bcast_S_S65536x128 (constant (F := Ideal) S_ .f32 0x00000000#32))
    (broadcastInDim S1048576x1 ![0] bcast_S1048576_S1048576x1_0 dst)
    (mulf (broadcastInDim S1048576x128 ![0, 1] bcast_S1048576x1_S1048576x128_0_1 (broadcastInDim S1048576x1 ![0] bcast_S1048576_S1048576x1_0 vals))
      (Host.gather gather_S65536x128_S1048576x1_S1048576x128_1_0_n_n_0_1_1128 h
        (broadcastInDim S1048576x1 ![0] bcast_S1048576_S1048576x1_0
          (select (cmpi .slt src (broadcastInDim S1048576 ![] bcast_S_S1048576 (constantI S_ 32 0#32)))
            (addi src (broadcastInDim S1048576 ![] bcast_S_S1048576 (constantI S_ 32 65536#32))) src))))

variable (m : (ℓ : Loc nD τ sig) → Buf (Elt Ideal) ℓ) (ρ : Dev nD → PrngReg)

/-! ## After the reshapes -/

theorem W1_arg0 (c : Dev nD) : W1 m ρ c (Proc.devRef .tc main_arg0) = (m ((c : Thread nD τ).loc main_arg0)) := by
  show StableHlo.after hostOps0 (W0 m ρ c) (Proc.devRef .tc main_arg0) = _
  dsimp only [hostOps0]; after_results
theorem W1_arg1 (c : Dev nD) : W1 m ρ c (Proc.devRef .tc main_arg1) = (m ((c : Thread nD τ).loc main_arg1)) := by
  show StableHlo.after hostOps0 (W0 m ρ c) (Proc.devRef .tc main_arg1) = _
  dsimp only [hostOps0]; after_results
theorem W1_arg2 (c : Dev nD) : W1 m ρ c (Proc.devRef .tc main_arg2) = (m ((c : Thread nD τ).loc main_arg2)) := by
  show StableHlo.after hostOps0 (W0 m ρ c) (Proc.devRef .tc main_arg2) = _
  dsimp only [hostOps0]; after_results
theorem W1_arg3 (c : Dev nD) : W1 m ρ c (Proc.devRef .tc main_arg3) = (m ((c : Thread nD τ).loc main_arg3)) := by
  show StableHlo.after hostOps0 (W0 m ρ c) (Proc.devRef .tc main_arg3) = _
  dsimp only [hostOps0]; after_results
theorem W1_arg4 (c : Dev nD) : W1 m ρ c (Proc.devRef .tc main_arg4) = (m ((c : Thread nD τ).loc main_arg4)) := by
  show StableHlo.after hostOps0 (W0 m ρ c) (Proc.devRef .tc main_arg4) = _
  dsimp only [hostOps0]; after_results
theorem W1_arg11 (c : Dev nD) : W1 m ρ c (Proc.devRef .tc main_arg11) = (m ((c : Thread nD τ).loc main_arg11)) := by
  show StableHlo.after hostOps0 (W0 m ρ c) (Proc.devRef .tc main_arg11) = _
  dsimp only [hostOps0]; after_results
theorem W1_arg13 (c : Dev nD) : W1 m ρ c (Proc.devRef .tc main_arg13) = (m ((c : Thread nD τ).loc main_arg13)) := by
  show StableHlo.after hostOps0 (W0 m ρ c) (Proc.devRef .tc main_arg13) = _
  dsimp only [hostOps0]; after_results
theorem W1_v0 (c : Dev nD) : W1 m ρ c (Proc.devRef .tc main_v0) = rowOf (m ((c : Thread nD τ).loc main_arg14)) := by
  show StableHlo.after hostOps0 (W0 m ρ c) (Proc.devRef .tc main_v0) = _
  dsimp only [hostOps0]; after_results; rfl
theorem W1_v1 (c : Dev nD) : W1 m ρ c (Proc.devRef .tc main_v1) = rowOf (m ((c : Thread nD τ).loc main_arg7)) := by
  show StableHlo.after hostOps0 (W0 m ρ c) (Proc.devRef .tc main_v1) = _
  dsimp only [hostOps0]; after_results; rfl
theorem W1_v2 (c : Dev nD) : W1 m ρ c (Proc.devRef .tc main_v2) = rowOf (m ((c : Thread nD τ).loc main_arg8)) := by
  show StableHlo.after hostOps0 (W0 m ρ c) (Proc.devRef .tc main_v2) = _
  dsimp only [hostOps0]; after_results; rfl
theorem W1_v3 (c : Dev nD) : W1 m ρ c (Proc.devRef .tc main_v3) = rowOf (m ((c : Thread nD τ).loc main_arg9)) := by
  show StableHlo.after hostOps0 (W0 m ρ c) (Proc.devRef .tc main_v3) = _
  dsimp only [hostOps0]; after_results; rfl
theorem W1_v4 (c : Dev nD) : W1 m ρ c (Proc.devRef .tc main_v4) = rowOf (m ((c : Thread nD τ).loc main_arg10)) := by
  show StableHlo.after hostOps0 (W0 m ρ c) (Proc.devRef .tc main_v4) = _
  dsimp only [hostOps0]; after_results; rfl
theorem W1_v5 (c : Dev nD) : W1 m ρ c (Proc.devRef .tc main_v5) = rowOf (m ((c : Thread nD τ).loc main_arg12)) := by
  show StableHlo.after hostOps0 (W0 m ρ c) (Proc.devRef .tc main_v5) = _
  dsimp only [hostOps0]; after_results; rfl
theorem W1_v6 (c : Dev nD) : W1 m ρ c (Proc.devRef .tc main_v6) = rowOf (m ((c : Thread nD τ).loc main_arg5)) := by
  show StableHlo.after hostOps0 (W0 m ρ c) (Proc.devRef .tc main_v6) = _
  dsimp only [hostOps0]; after_results; rfl
theorem W1_v7 (c : Dev nD) : W1 m ρ c (Proc.devRef .tc main_v7) = rowOf (m ((c : Thread nD τ).loc main_arg6)) := by
  show StableHlo.after hostOps0 (W0 m ρ c) (Proc.devRef .tc main_v7) = _
  dsimp only [hostOps0]; after_results; rfl

/-! ## After the first kernel -/

/-- The first stage's array, as a function of the arguments. -/
abbrev stage1 (c : Dev nD) : S65536x128.Idx → EReal :=
  prepArr (m ((c : Thread nD τ).loc main_arg0)) (m ((c : Thread nD τ).loc main_arg4)) (m ((c : Thread nD τ).loc main_arg13)) (rowOf (m ((c : Thread nD τ).loc main_arg14))) (rowOf (m ((c : Thread nD τ).loc main_arg7))) (rowOf (m ((c : Thread nD τ).loc main_arg8)))

theorem W2_v8 (c : Dev nD) : W2 m ρ c (Proc.devRef .tc main_v8) = stage1 m c := by
  refine ((W2_arr m ρ c 6).trans (final0 (V1 m ρ) c)).trans ?_
  show prepArr (W1 m ρ c (Proc.devRef .tc main_arg0)) (W1 m ρ c (Proc.devRef .tc main_arg4)) (W1 m ρ c (Proc.devRef .tc main_arg13))
      (W1 m ρ c (Proc.devRef .tc main_v0)) (W1 m ρ c (Proc.devRef .tc main_v1)) (W1 m ρ c (Proc.devRef .tc main_v2)) = _
  rw [W1_arg0, W1_arg4, W1_arg13, W1_v0, W1_v1, W1_v2]

theorem W2_arg0 (c : Dev nD) : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_v3 (c : Dev nD) : W2 m ρ c (Proc.devRef .tc main_v3) = rowOf (m ((c : Thread nD τ).loc main_arg9)) :=
  (W2_of_ne m ρ c main_v3 (by decide)).trans (W1_v3 m ρ c)
theorem W2_v4 (c : Dev nD) : W2 m ρ c (Proc.devRef .tc main_v4) = rowOf (m ((c : Thread nD τ).loc main_arg10)) :=
  (W2_of_ne m ρ c main_v4 (by decide)).trans (W1_v4 m ρ c)
theorem W2_v5 (c : Dev nD) : W2 m ρ c (Proc.devRef .tc main_v5) = rowOf (m ((c : Thread nD τ).loc main_arg12)) :=
  (W2_of_ne m ρ c main_v5 (by decide)).trans (W1_v5 m ρ c)
theorem W2_v6 (c : Dev nD) : W2 m ρ c (Proc.devRef .tc main_v6) = rowOf (m ((c : Thread nD τ).loc main_arg5)) :=
  (W2_of_ne m ρ c main_v6 (by decide)).trans (W1_v6 m ρ c)
theorem W2_v7 (c : Dev nD) : W2 m ρ c (Proc.devRef .tc main_v7) = rowOf (m ((c : Thread nD τ).loc main_arg6)) :=
  (W2_of_ne m ρ c main_v7 (by decide)).trans (W1_v7 m ρ c)

/-! ## After the sparse aggregate -/

set_option maxHeartbeats 2000000 in
theorem W3_v21 (c : Dev nD) : W3 m ρ c (Proc.devRef .tc main_v21)
    = aggregate (stage1 m c) (m ((c : Thread nD τ).loc main_arg1)) (m ((c : Thread nD τ).loc main_arg2)) (m ((c : Thread nD τ).loc main_arg3)) := by
  show StableHlo.after hostOps1 (W2 m ρ c) (Proc.devRef .tc main_v21) = _
  after_results_simp
  rw [W2_v8, W2_arg1, W2_arg2, W2_arg3]
  rfl
theorem W3_arg0 (c : Dev nD) : W3 m ρ c (Proc.devRef .tc main_arg0) = (m ((c : Thread nD τ).loc main_arg0)) := by
  show StableHlo.after hostOps1 (W2 m ρ c) (Proc.devRef .tc main_arg0) = _
  dsimp only [hostOps1]; after_results; exact W2_arg0 m ρ c
theorem W3_arg11 (c : Dev nD) : W3 m ρ c (Proc.devRef .tc main_arg11) = (m ((c : Thread nD τ).loc main_arg11)) := by
  show StableHlo.after hostOps1 (W2 m ρ c) (Proc.devRef .tc main_arg11) = _
  dsimp only [hostOps1]; after_results; exact W2_arg11 m ρ c
theorem W3_v3 (c : Dev nD) : W3 m ρ c (Proc.devRef .tc main_v3) = rowOf (m ((c : Thread nD τ).loc main_arg9)) := by
  show StableHlo.after hostOps1 (W2 m ρ c) (Proc.devRef .tc main_v3) = _
  dsimp only [hostOps1]; after_results; exact W2_v3 m ρ c
theorem W3_v4 (c : Dev nD) : W3 m ρ c (Proc.devRef .tc main_v4) = rowOf (m ((c : Thread nD τ).loc main_arg10)) := by
  show StableHlo.after hostOps1 (W2 m ρ c) (Proc.devRef .tc main_v4) = _
  dsimp only [hostOps1]; after_results; exact W2_v4 m ρ c
theorem W3_v5 (c : Dev nD) : W3 m ρ c (Proc.devRef .tc main_v5) = rowOf (m ((c : Thread nD τ).loc main_arg12)) := by
  show StableHlo.after hostOps1 (W2 m ρ c) (Proc.devRef .tc main_v5) = _
  dsimp only [hostOps1]; after_results; exact W2_v5 m ρ c
theorem W3_v6 (c : Dev nD) : W3 m ρ c (Proc.devRef .tc main_v6) = rowOf (m ((c : Thread nD τ).loc main_arg5)) := by
  show StableHlo.after hostOps1 (W2 m ρ c) (Proc.devRef .tc main_v6) = _
  dsimp only [hostOps1]; after_results; exact W2_v6 m ρ c
theorem W3_v7 (c : Dev nD) : W3 m ρ c (Proc.devRef .tc main_v7) = rowOf (m ((c : Thread nD τ).loc main_arg6)) := by
  show StableHlo.after hostOps1 (W2 m ρ c) (Proc.devRef .tc main_v7) = _
  dsimp only [hostOps1]; after_results; exact W2_v7 m ρ c

/-! ## After the second kernel -/

/-- The program's result, as a function of the arguments. -/
abbrev resultOf (c : Dev nD) : S65536x128.Idx → EReal :=
  postArr (aggregate (stage1 m c) (m ((c : Thread nD τ).loc main_arg1)) (m ((c : Thread nD τ).loc main_arg2)) (m ((c : Thread nD τ).loc main_arg3))) (m ((c : Thread nD τ).loc main_arg0)) (m ((c : Thread nD τ).loc main_arg11))
    (rowOf (m ((c : Thread nD τ).loc main_arg12))) (rowOf (m ((c : Thread nD τ).loc main_arg9))) (rowOf (m ((c : Thread nD τ).loc main_arg10))) (rowOf (m ((c : Thread nD τ).loc main_arg5))) (rowOf (m ((c : Thread nD τ).loc main_arg6)))

theorem W4_v22 (c : Dev nD) : W4 m ρ c (Proc.devRef .tc main_v22) = resultOf m c := by
  refine ((W4_arr m ρ c 8).trans (final1 (V3 m ρ) c)).trans ?_
  show postArr (W3 m ρ c (Proc.devRef .tc main_v21)) (W3 m ρ c (Proc.devRef .tc main_arg0)) (W3 m ρ c (Proc.devRef .tc main_arg11))
      (W3 m ρ c (Proc.devRef .tc main_v5)) (W3 m ρ c (Proc.devRef .tc main_v3)) (W3 m ρ c (Proc.devRef .tc main_v4))
      (W3 m ρ c (Proc.devRef .tc main_v6)) (W3 m ρ c (Proc.devRef .tc main_v7)) = _
  rw [W3_v21, W3_arg0, W3_arg11, W3_v5, W3_v3, W3_v4, W3_v6, W3_v7]

end Cert.KernelIdeal.Hand

end
-- ==== Proof.RefRows.lean ====
/-
  The reference program's two dense stages at one entry, at the ideal values.

  The reference computes on whole [65536, 128] arrays.  Read one operation at a time, its value after the first stage
  at entry (p, q) is the first dense stage of row p of the input and conditioning arrays (layer normalisation with the
  mean and variance taken as sums of the row divided by 128, the conditioning row against the 128 × 128 weights, the
  bias, and x · 1 / (1 + e^(−x)), which is x · σ(x)); and its result at entry (p, q) is the second dense stage of row p
  of the aggregated array (the scatter-add's result, left unopened here) and of the input array.
  The index equations below say where each layout operation of the reference reads, in coordinates.
-/
import proofs.«160971_j18227841204838_1_alg».proof.Proof.Gen.ReferenceIdeal.Read
import proofs.«160971_j18227841204838_1_alg».proof.Proof.Rows

noncomputable section

open scoped BigOperators

namespace Cert.ReferenceIdeal.Hand

open Cert.ReferenceIdeal Cert.ReferenceIdeal.Read Cert.GraphBlock
open Idealize.ShloMosaic Idealize.ShloMosaic.ValueIdx

/-- Two indices of rank at most two with equal coordinates are equal. -/
local macro "ext2" : tactic =>
  `(tactic| (funext a; apply Fin.ext; first | (match a with | ⟨0, _⟩ => rfl | ⟨1, _⟩ => rfl) | (match a with | ⟨0, _⟩ => rfl)))

/-! ## Where the layout operations read -/

-- a row sum reads the row's entries
theorem i_v0 (p : Fin 65536) (k : Fin 128) : idx_main_v0 (ix1 p) k = ix2 p k := by ext2
theorem i_v7 (p : Fin 65536) (k : Fin 128) : idx_main_v7 (ix1 p) k = ix2 p k := by ext2
theorem i_v47 (p : Fin 65536) (k : Fin 128) : idx_main_v47 (ix1 p) k = ix2 p k := by ext2
theorem i_v54 (p : Fin 65536) (k : Fin 128) : idx_main_v54 (ix1 p) k = ix2 p k := by ext2
-- a vector as a column reads the vector at the row
theorem i_v1 (p : Fin 65536) (u : Fin 1) : idx_main_v1 (ix2 p u) = ix1 p := by ext2
theorem i_v8 (p : Fin 65536) (u : Fin 1) : idx_main_v8 (ix2 p u) = ix1 p := by ext2
theorem i_v48 (p : Fin 65536) (u : Fin 1) : idx_main_v48 (ix2 p u) = ix1 p := by ext2
theorem i_v55 (p : Fin 65536) (u : Fin 1) : idx_main_v55 (ix2 p u) = ix1 p := by ext2
-- a column broadcast along rows reads the column at the row
theorem i_v4 (p : Fin 65536) (q : Fin 128) : idx_main_v4 (ix2 p q) = ix2 p (0 : Fin 1) := by ext2
theorem i_v11 (p : Fin 65536) (q : Fin 128) : idx_main_v11 (ix2 p q) = ix2 p (0 : Fin 1) := by ext2
theorem i_v16 (p : Fin 65536) (q : Fin 128) : idx_main_v16 (ix2 p q) = ix2 p (0 : Fin 1) := by ext2
theorem i_v51 (p : Fin 65536) (q : Fin 128) : idx_main_v51 (ix2 p q) = ix2 p (0 : Fin 1) := by ext2
theorem i_v58 (p : Fin 65536) (q : Fin 128) : idx_main_v58 (ix2 p q) = ix2 p (0 : Fin 1) := by ext2
theorem i_v63 (p : Fin 65536) (q : Fin 128) : idx_main_v63 (ix2 p q) = ix2 p (0 : Fin 1) := by ext2
-- a parameter vector as a one-row array reads the vector at the column
theorem i_v18 (u : Fin 1) (q : Fin 128) : idx_main_v18 (ix2 u q) = ix1 q := by ext2
theorem i_v21 (u : Fin 1) (q : Fin 128) : idx_main_v21 (ix2 u q) = ix1 q := by ext2
theorem i_v26 (u : Fin 1) (q : Fin 128) : idx_main_v26 (ix2 u q) = ix1 q := by ext2
theorem i_v44 (u : Fin 1) (q : Fin 128) : idx_main_v44 (ix2 u q) = ix1 q := by ext2
theorem i_v65 (u : Fin 1) (q : Fin 128) : idx_main_v65 (ix2 u q) = ix1 q := by ext2
theorem i_v68 (u : Fin 1) (q : Fin 128) : idx_main_v68 (ix2 u q) = ix1 q := by ext2
theorem i_v71 (u : Fin 1) (q : Fin 128) : idx_main_v71 (ix2 u q) = ix1 q := by ext2
theorem i_v74 (u : Fin 1) (q : Fin 128) : idx_main_v74 (ix2 u q) = ix1 q := by ext2
-- a one-row array broadcast down the rows reads the row at the column
theorem i_v19 (p : Fin 65536) (q : Fin 128) : idx_main_v19 (ix2 p q) = ix2 (0 : Fin 1) q := by ext2
theorem i_v22 (p : Fin 65536) (q : Fin 128) : idx_main_v22 (ix2 p q) = ix2 (0 : Fin 1) q := by ext2
theorem i_v27 (p : Fin 65536) (q : Fin 128) : idx_main_v27 (ix2 p q) = ix2 (0 : Fin 1) q := by ext2
theorem i_v45 (p : Fin 65536) (q : Fin 128) : idx_main_v45 (ix2 p q) = ix2 (0 : Fin 1) q := by ext2
theorem i_v66 (p : Fin 65536) (q : Fin 128) : idx_main_v66 (ix2 p q) = ix2 (0 : Fin 1) q := by ext2
theorem i_v69 (p : Fin 65536) (q : Fin 128) : idx_main_v69 (ix2 p q) = ix2 (0 : Fin 1) q := by ext2
theorem i_v72 (p : Fin 65536) (q : Fin 128) : idx_main_v72 (ix2 p q) = ix2 (0 : Fin 1) q := by ext2
theorem i_v75 (p : Fin 65536) (q : Fin 128) : idx_main_v75 (ix2 p q) = ix2 (0 : Fin 1) q := by ext2
-- a matrix product reads row p of the left operand and column q of the right one
theorem l_v24 (p : Fin 65536) (q k : Fin 128) : lidx_main_v24 (ix2 p q) k = ix2 p k := by ext2
theorem r_v24 (p : Fin 65536) (q k : Fin 128) : ridx_main_v24 (ix2 p q) k = ix2 k q := by ext2
theorem l_v43 (p : Fin 65536) (q k : Fin 128) : lidx_main_v43 (ix2 p q) k = ix2 p k := by ext2
theorem r_v43 (p : Fin 65536) (q k : Fin 128) : ridx_main_v43 (ix2 p q) k = ix2 k q := by ext2

/-! ## The first stage at an entry -/

section Prep
variable (x0 x4 : (⟨S65536x128, .f32⟩ : BufTy).Contents (Elt Ideal)) (x7 x8 : (⟨S128, .f32⟩ : BufTy).Contents (Elt Ideal))
  (x13 : (⟨S128x128, .f32⟩ : BufTy).Contents (Elt Ideal)) (x14 : (⟨S128, .f32⟩ : BufTy).Contents (Elt Ideal))

/-- The row means, kept as a column. -/
theorem ref_mean (p : Fin 65536) (u : Fin 1) :
    val_main_v3 (F := Ideal) x0 (ix2 p u) = rowMean (fun k => x0 (ix2 p k)) := by
  unfold rowMean
  simp only [val_main_v3_apply, val_main_v2_apply, val_main_cst_0_apply, val_main_v1_apply, val_main_v0_apply,
    val_main_cst_apply, i_v0, i_v1, Ideal.ofBits_def, Ideal.hostDivf_def, Ideal.ofBits_zero_f32, zero_add]

/-- The reciprocal square roots of the row variances plus the offset, kept as a column. -/
theorem ref_rstd (p : Fin 65536) (u : Fin 1) :
    val_main_v15 (F := Ideal) x0 (ix2 p u)
      = Ideal.rsqrt (Ideal.div (∑ k : Fin 128, (x0 (ix2 p k) - rowMean (fun k => x0 (ix2 p k))) * (x0 (ix2 p k) - rowMean (fun k => x0 (ix2 p k))))
          (Ideal.ofBits .f32 w128) + Ideal.ofBits .f32 wEps) := by
  simp only [val_main_v15_apply, val_main_v14_apply, val_main_v13_apply, val_main_cst_3_apply, val_main_v10_apply,
    val_main_v9_apply, val_main_cst_2_apply, val_main_v8_apply, val_main_v7_apply, val_main_cst_1_apply,
    val_main_v6_apply, val_main_v5_apply, val_main_v4_apply, i_v4, i_v7, i_v8, ref_mean,
    Ideal.ofBits_def, Ideal.addf_def, Ideal.subf_def, Ideal.mulf_def, Ideal.hostDivf_def, Ideal.hostUnary_rsqrt_def,
    Ideal.ofBits_zero_f32, zero_add]

/-- The normalised, scaled and shifted row. -/
theorem ref_ln1 (p : Fin 65536) (q : Fin 128) :
    val_main_v23 (F := Ideal) x0 x7 x8 (ix2 p q)
      = lnRow (fun k => x0 (ix2 p k)) (fun j => x7 (ix1 j)) (fun j => x8 (ix1 j)) q := by
  unfold lnRow
  simp only [val_main_v23_apply, val_main_v22_apply, val_main_v21_apply, val_main_v20_apply, val_main_v19_apply,
    val_main_v18_apply, val_main_v17_apply, val_main_v16_apply, val_main_v12_apply, val_main_v11_apply,
    i_v11, i_v16, i_v18, i_v19, i_v21, i_v22, ref_mean, ref_rstd,
    Ideal.addf_def, Ideal.subf_def, Ideal.mulf_def]

/-- The first stage before the activation. -/
theorem ref_pre (p : Fin 65536) (q : Fin 128) :
    val_main_v28 (F := Ideal) x0 x4 x7 x8 x13 x14 (ix2 p q)
      = lnRow (fun k => x0 (ix2 p k)) (fun j => x7 (ix1 j)) (fun j => x8 (ix1 j)) q
          + dotRow (fun k => x4 (ix2 p k)) (fun k j => x13 (ix2 k j)) q + x14 (ix1 q) := by
  unfold dotRow
  simp only [val_main_v28_apply, val_main_v27_apply, val_main_v26_apply, val_main_v25_apply, val_main_v24_apply,
    i_v26, i_v27, l_v24, r_v24, ref_ln1, Ideal.addf_def]

/-- After the first stage the reference holds, at entry (p, q), the first dense stage of row p. -/
theorem ref_prep (p : Fin 65536) (q : Fin 128) :
    val_main_v29 (F := Ideal) x0 x4 x7 x8 x13 x14 (ix2 p q)
      = prepRow (fun k => x0 (ix2 p k)) (fun k => x4 (ix2 p k)) (fun k j => x13 (ix2 k j))
          (fun j => x14 (ix1 j)) (fun j => x7 (ix1 j)) (fun j => x8 (ix1 j)) q := by
  unfold prepRow
  simp only [val_main_v29_apply, val_main_call0_v5_apply, val_main_call0_v4_apply, val_main_call0_cst_0_apply,
    val_main_call0_v3_apply, val_main_call0_v2_apply, val_main_call0_cst_apply, val_main_call0_v1_apply,
    val_main_call0_v0_apply, ref_pre,
    Ideal.ofBits_def, Ideal.addf_def, Ideal.mulf_def, Ideal.hostDivf_def,
    Ideal.hostUnary_exp_def, Ideal.hostNegf_def, Ideal.negf_def, ofBits_one_f32, Ideal.logistic]

end Prep

end Cert.ReferenceIdeal.Hand

end
-- ==== Proof.RefPost.lean ====
/-
  The reference program's second dense stage at one entry, at the ideal values: its result at entry (p, q) is the
  second dense stage of row p of the aggregated array (the scatter-add's result, left unopened) and of the input array.
-/
import proofs.«160971_j18227841204838_1_alg».proof.Proof.RefRows

noncomputable section

open scoped BigOperators

namespace Cert.ReferenceIdeal.Hand

open Cert.ReferenceIdeal Cert.ReferenceIdeal.Read Cert.GraphBlock
open Idealize.ShloMosaic Idealize.ShloMosaic.ValueIdx

/-! ## The second stage at an entry -/

section Post
variable (x0 : (⟨S65536x128, .f32⟩ : BufTy).Contents (Elt Ideal)) (x1 x2 : (⟨S1048576, .i32⟩ : BufTy).Contents (Elt Ideal))
  (x3 : (⟨S1048576, .f32⟩ : BufTy).Contents (Elt Ideal)) (x4 : (⟨S65536x128, .f32⟩ : BufTy).Contents (Elt Ideal))
  (x5 x6 x7 x8 x9 x10 : (⟨S128, .f32⟩ : BufTy).Contents (Elt Ideal)) (x11 : (⟨S128x128, .f32⟩ : BufTy).Contents (Elt Ideal))
  (x12 : (⟨S128, .f32⟩ : BufTy).Contents (Elt Ideal)) (x13 : (⟨S128x128, .f32⟩ : BufTy).Contents (Elt Ideal))
  (x14 : (⟨S128, .f32⟩ : BufTy).Contents (Elt Ideal))

/-- Row p of the aggregated array projected through the weights, plus the bias: the row the second normalisation sees. -/
def projRow (p : Fin 65536) : Fin 128 → EReal := fun j =>
  dotRow (fun k => val_main_v42 (F := Ideal) x0 x1 x2 x3 x4 x7 x8 x13 x14 (ix2 p k)) (fun k j => x11 (ix2 k j)) j + x12 (ix1 j)

/-- The aggregated row against the weights, plus the bias. -/
theorem ref_proj (p : Fin 65536) (q : Fin 128) :
    val_main_v46 (F := Ideal) x0 x1 x2 x3 x4 x7 x8 x11 x12 x13 x14 (ix2 p q) = projRow x0 x1 x2 x3 x4 x7 x8 x11 x12 x13 x14 p q := by
  unfold projRow dotRow
  rw [val_main_v46_apply, val_main_v45_apply, i_v45, val_main_v44_apply, i_v44, val_main_v43_apply]
  simp only [l_v43, r_v43]
  rfl

/-- The projected rows' means, kept as a column. -/
theorem ref_mean2 (p : Fin 65536) (u : Fin 1) :
    val_main_v50 (F := Ideal) x0 x1 x2 x3 x4 x7 x8 x11 x12 x13 x14 (ix2 p u) = rowMean (projRow x0 x1 x2 x3 x4 x7 x8 x11 x12 x13 x14 p) := by
  unfold rowMean
  rw [val_main_v50_apply, val_main_v49_apply, val_main_cst_7_apply, val_main_v48_apply, i_v48, val_main_v47_apply,
    val_main_cst_6_apply]
  have hs : ∀ k : Fin 128, val_main_v46 (F := Ideal) x0 x1 x2 x3 x4 x7 x8 x11 x12 x13 x14 (idx_main_v47 (ix1 p) k)
      = projRow x0 x1 x2 x3 x4 x7 x8 x11 x12 x13 x14 p k := fun k => by rw [i_v47, ref_proj]
  rw [Finset.sum_congr rfl fun k _ => hs k]
  show Ideal.div (Ideal.ofBits .f32 0x00000000#32 + _) _ = _
  rw [Ideal.ofBits_zero_f32, zero_add]
  rfl

/-- The reciprocal square roots of the projected rows' variances plus the offset, kept as a column. -/
theorem ref_rstd2 (p : Fin 65536) (u : Fin 1) :
    val_main_v62 (F := Ideal) x0 x1 x2 x3 x4 x7 x8 x11 x12 x13 x14 (ix2 p u)
      = Ideal.rsqrt (Ideal.div (∑ k : Fin 128,
            (projRow x0 x1 x2 x3 x4 x7 x8 x11 x12 x13 x14 p k - rowMean (projRow x0 x1 x2 x3 x4 x7 x8 x11 x12 x13 x14 p))
              * (projRow x0 x1 x2 x3 x4 x7 x8 x11 x12 x13 x14 p k - rowMean (projRow x0 x1 x2 x3 x4 x7 x8 x11 x12 x13 x14 p)))
          (Ideal.ofBits .f32 w128) + Ideal.ofBits .f32 wEps) := by
  rw [val_main_v62_apply, val_main_v61_apply, val_main_v60_apply, val_main_cst_10_apply, val_main_v57_apply,
    val_main_v56_apply, val_main_cst_9_apply, val_main_v55_apply, i_v55, val_main_v54_apply, val_main_cst_8_apply]
  have hs : ∀ k : Fin 128, val_main_v53 (F := Ideal) x0 x1 x2 x3 x4 x7 x8 x11 x12 x13 x14 (idx_main_v54 (ix1 p) k)
      = (projRow x0 x1 x2 x3 x4 x7 x8 x11 x12 x13 x14 p k - rowMean (projRow x0 x1 x2 x3 x4 x7 x8 x11 x12 x13 x14 p))
          * (projRow x0 x1 x2 x3 x4 x7 x8 x11 x12 x13 x14 p k - rowMean (projRow x0 x1 x2 x3 x4 x7 x8 x11 x12 x13 x14 p)) := fun k => by
    rw [i_v54, val_main_v53_apply, val_main_v52_apply, val_main_v51_apply, i_v51, ref_mean2, ref_proj]
    rfl
  rw [Finset.sum_congr rfl fun k _ => hs k]
  show Ideal.rsqrt (Ideal.div (Ideal.ofBits .f32 0x00000000#32 + _) _ + _) = _
  rw [Ideal.ofBits_zero_f32, zero_add]
  rfl

/-- The projected row normalised, scaled and shifted. -/
theorem ref_ln2 (p : Fin 65536) (q : Fin 128) :
    val_main_v70 (F := Ideal) x0 x1 x2 x3 x4 x7 x8 x9 x10 x11 x12 x13 x14 (ix2 p q)
      = lnRow (projRow x0 x1 x2 x3 x4 x7 x8 x11 x12 x13 x14 p) (fun j => x9 (ix1 j)) (fun j => x10 (ix1 j)) q := by
  unfold lnRow
  rw [val_main_v70_apply, val_main_v69_apply, i_v69, val_main_v68_apply, i_v68, val_main_v67_apply, val_main_v66_apply, i_v66,
    val_main_v65_apply, i_v65, val_main_v64_apply, val_main_v63_apply, i_v63, ref_rstd2, val_main_v59_apply, val_main_v58_apply,
    i_v58, ref_mean2, ref_proj]
  rfl

/-- The reference's result at entry (p, q) is the second dense stage of row p of the aggregated array and the input. -/
theorem ref_post (p : Fin 65536) (q : Fin 128) :
    val_main_v77 (F := Ideal) x0 x1 x2 x3 x4 x5 x6 x7 x8 x9 x10 x11 x12 x13 x14 (ix2 p q)
      = postRow (fun k => val_main_v42 (F := Ideal) x0 x1 x2 x3 x4 x7 x8 x13 x14 (ix2 p k)) (fun k => x0 (ix2 p k))
          (fun k j => x11 (ix2 k j)) (fun j => x12 (ix1 j)) (fun j => x9 (ix1 j)) (fun j => x10 (ix1 j))
          (fun j => x5 (ix1 j)) (fun j => x6 (ix1 j)) q := by
  unfold postRow
  rw [val_main_v77_apply, val_main_v76_apply, val_main_v75_apply, i_v75, val_main_v74_apply, i_v74, val_main_v73_apply,
    val_main_v72_apply, i_v72, val_main_v71_apply, i_v71, ref_ln2]
  rfl

end Post

end Cert.ReferenceIdeal.Hand

end
-- ==== Proof.RefAgg.lean ====
/-
  The reference's sparse aggregate as one function.  Its sixteen operations between the two dense stages — the
  source-row indices wrapped where negative, the first stage's rows gathered at them, each scaled by its edge value, the
  scaled rows summed into the destination rows of a zero array — are the value of `aggregate` at the first stage's
  array and the three edge arrays: the operations' definitions composed, nothing computed.
-/
import proofs.«160971_j18227841204838_1_alg».proof.Proof.Gen.ReferenceIdeal.Read

noncomputable section

namespace Cert.ReferenceIdeal.Hand

open Cert.ReferenceIdeal Cert.ReferenceIdeal.Gen Cert.ReferenceIdeal.Read
open Idealize.ShloMosaic

/-- The sparse aggregate: for each edge, the source row of `h` (its index wrapped where negative) scaled by the edge's
    value, summed into the edge's destination row of a zero array. -/
def aggregate (h : (⟨S65536x128, .f32⟩ : BufTy).Contents (Elt Ideal)) (dst src : (⟨S1048576, .i32⟩ : BufTy).Contents (Elt Ideal))
    (vals : (⟨S1048576, .f32⟩ : BufTy).Contents (Elt Ideal)) : (⟨S65536x128, .f32⟩ : BufTy).Contents (Elt Ideal) :=
  Host.scatterAdd scatter_S65536x128_S1048576x1_S1048576x128_1_0_0_1
    (broadcastInDim S65536x128 ![] bcast_S_S65536x128 (constant (F := Ideal) S_ .f32 0x00000000#32))
    (broadcastInDim S1048576x1 ![0] bcast_S1048576_S1048576x1_0 dst)
    (mulf (broadcastInDim S1048576x128 ![0, 1] bcast_S1048576x1_S1048576x128_0_1 (broadcastInDim S1048576x1 ![0] bcast_S1048576_S1048576x1_0 vals))
      (Host.gather gather_S65536x128_S1048576x1_S1048576x128_1_0_n_n_0_1_1128 h
        (broadcastInDim S1048576x1 ![0] bcast_S1048576_S1048576x1_0
          (select (cmpi .slt src (broadcastInDim S1048576 ![] bcast_S_S1048576 (constantI S_ 32 0#32)))
            (addi src (broadcastInDim S1048576 ![] bcast_S_S1048576 (constantI S_ 32 65536#32))) src))))

/-- The reference's aggregated array is the aggregate of its first stage's array. -/
theorem agg_eq (x0 : (⟨S65536x128, .f32⟩ : BufTy).Contents (Elt Ideal)) (x1 x2 : (⟨S1048576, .i32⟩ : BufTy).Contents (Elt Ideal))
    (x3 : (⟨S1048576, .f32⟩ : BufTy).Contents (Elt Ideal)) (x4 : (⟨S65536x128, .f32⟩ : BufTy).Contents (Elt Ideal))
    (x7 x8 : (⟨S128, .f32⟩ : BufTy).Contents (Elt Ideal)) (x13 : (⟨S128x128, .f32⟩ : BufTy).Contents (Elt Ideal))
    (x14 : (⟨S128, .f32⟩ : BufTy).Contents (Elt Ideal)) :
    val_main_v42 (F := Ideal) x0 x1 x2 x3 x4 x7 x8 x13 x14
      = aggregate (val_main_v29 (F := Ideal) x0 x4 x7 x8 x13 x14) x1 x2 x3 := by
  unfold val_main_v42 val_main_v39 val_main_v37 val_main_v41 val_main_v40 val_main_cst_5 val_main_v38 val_main_v30
    val_main_v36 val_main_v35 val_main_v34 val_main_v33 val_main_c_4 val_main_v32 val_main_v31 val_main_c aggregate
  rfl

end Cert.ReferenceIdeal.Hand

end
-- ==== Proof.Bridge.lean ====
/-
  The two programs compute one function.  Written over the same fifteen argument arrays, the kernel program's result
  is the second dense stage, row by row, of the sparse aggregate of the first dense stage, row by row; the reference's
  result at an entry is the second dense stage of the corresponding row of ITS aggregate of ITS first stage.  The first
  stages agree entry by entry (both are the row function `prepRow` of row p of the operands; a parameter vector laid
  out as a one-row array reads back the vector), the aggregate is the same composition of host operations on both
  sides, and the second stages agree entry by entry (both are `postRow`).  No law of arithmetic is used: each side is
  the same expression in the same order, so no finiteness of the inputs is needed.
-/
import proofs.«160971_j18227841204838_1_alg».proof.Proof.KArr
import proofs.«160971_j18227841204838_1_alg».proof.Proof.RefRows
import proofs.«160971_j18227841204838_1_alg».proof.Proof.RefPost
import proofs.«160971_j18227841204838_1_alg».proof.Proof.RefAgg
import Idealize.ShloMosaic.Lib.ValueLayout

noncomputable section

namespace Cert.Bridge

open Idealize.ShloMosaic Idealize.ShloMosaic.ValueIdx Cert.GraphBlock

/-- A parameter vector laid out as a one-row array reads back the vector. -/
theorem rowOf_apply (a : Cert.KernelIdeal.S128.Idx → EReal) (j : Fin 128) :
    Cert.KernelIdeal.Hand.rowOf a (ix2 (0 : Fin 1) j) = a (ix1 j) := by
  unfold Cert.KernelIdeal.Hand.rowOf
  exact shapeCast_a_1a_apply a _ (0 : Fin 1) j

/-- The sparse aggregate is the same composition of host operations in the two programs. -/
theorem agg_same (h : (⟨Cert.ReferenceIdeal.S65536x128, .f32⟩ : BufTy).Contents (Elt Ideal))
    (dst src : (⟨Cert.ReferenceIdeal.S1048576, .i32⟩ : BufTy).Contents (Elt Ideal))
    (vals : (⟨Cert.ReferenceIdeal.S1048576, .f32⟩ : BufTy).Contents (Elt Ideal)) :
    Cert.KernelIdeal.Hand.aggregate h dst src vals = Cert.ReferenceIdeal.Hand.aggregate h dst src vals := rfl

section
variable (x0 : (⟨Cert.ReferenceIdeal.S65536x128, .f32⟩ : BufTy).Contents (Elt Ideal))
  (x1 x2 : (⟨Cert.ReferenceIdeal.S1048576, .i32⟩ : BufTy).Contents (Elt Ideal))
  (x3 : (⟨Cert.ReferenceIdeal.S1048576, .f32⟩ : BufTy).Contents (Elt Ideal))
  (x4 : (⟨Cert.ReferenceIdeal.S65536x128, .f32⟩ : BufTy).Contents (Elt Ideal))
  (x5 x6 x7 x8 x9 x10 : (⟨Cert.ReferenceIdeal.S128, .f32⟩ : BufTy).Contents (Elt Ideal))
  (x11 : (⟨Cert.ReferenceIdeal.S128x128, .f32⟩ : BufTy).Contents (Elt Ideal))
  (x12 : (⟨Cert.ReferenceIdeal.S128, .f32⟩ : BufTy).Contents (Elt Ideal))
  (x13 : (⟨Cert.ReferenceIdeal.S128x128, .f32⟩ : BufTy).Contents (Elt Ideal))
  (x14 : (⟨Cert.ReferenceIdeal.S128, .f32⟩ : BufTy).Contents (Elt Ideal))

/-- The first stages agree: the kernel's, row by row over one-row parameter arrays, is the reference's. -/
theorem stage1_eq :
    Cert.KernelIdeal.Hand.prepArr x0 x4 x13 (Cert.KernelIdeal.Hand.rowOf x14) (Cert.KernelIdeal.Hand.rowOf x7) (Cert.KernelIdeal.Hand.rowOf x8)
      = Cert.ReferenceIdeal.Read.val_main_v29 (F := Ideal) x0 x4 x7 x8 x13 x14 := by
  funext i
  obtain ⟨p, q, rfl⟩ : ∃ (p : Fin 65536) (q : Fin 128), i = ix2 p q := ⟨i 0, i 1, eq_ix2 i⟩
  rw [Cert.KernelIdeal.Hand.prepArr_ix2, Cert.ReferenceIdeal.Hand.ref_prep]
  simp only [rowOf_apply]

/-- The results agree. -/
theorem result_eq :
    Cert.KernelIdeal.Hand.postArr (Cert.KernelIdeal.Hand.aggregate (Cert.KernelIdeal.Hand.prepArr x0 x4 x13 (Cert.KernelIdeal.Hand.rowOf x14) (Cert.KernelIdeal.Hand.rowOf x7) (Cert.KernelIdeal.Hand.rowOf x8)) x1 x2 x3)
        x0 x11 (Cert.KernelIdeal.Hand.rowOf x12) (Cert.KernelIdeal.Hand.rowOf x9) (Cert.KernelIdeal.Hand.rowOf x10) (Cert.KernelIdeal.Hand.rowOf x5) (Cert.KernelIdeal.Hand.rowOf x6)
      = Cert.ReferenceIdeal.Read.val_main_v77 (F := Ideal) x0 x1 x2 x3 x4 x5 x6 x7 x8 x9 x10 x11 x12 x13 x14 := by
  rw [stage1_eq, agg_same, ← Cert.ReferenceIdeal.Hand.agg_eq]
  funext i
  obtain ⟨p, q, rfl⟩ : ∃ (p : Fin 65536) (q : Fin 128), i = ix2 p q := ⟨i 0, i 1, eq_ix2 i⟩
  rw [Cert.KernelIdeal.Hand.postArr_ix2, Cert.ReferenceIdeal.Hand.ref_post]
  simp only [rowOf_apply]

end

end Cert.Bridge

end
-- ==== Proof.lean ====
/-
  The certificate's five claims for the graph residual block: layer normalisation, a conditioning projection and
  x · σ(x) (first dense stage); a sparse adjacency aggregate over 1,048,576 edges (gather, scale, scatter-add); a
  projection, a second layer normalisation, an affine map and the residual (second dense stage).

  The kernel program runs the two dense stages as row-tiled kernels of 16 blocks of 4096 rows and the aggregate as host
  operations between them; the reference runs everything as whole-array host operations.  The three frame claims are
  the programs' runs with the results dropped.  The idealization rewrote nothing, so its claim is trivial.  For the
  value claim the kernel program's result array is read off its run as the second dense stage, row by row, of the
  aggregate of the first dense stage, row by row, of its arguments; the reference's result is read one operation at a
  time as the same row functions of the same arguments; and the two are one function (`Cert.Bridge.result_eq`).  Both
  sides apply the same operations in the same order, so the precondition's finiteness is never used.
-/
import proofs.«160971_j18227841204838_1_alg».proof.Defs
import proofs.«160971_j18227841204838_1_alg».proof.Proof.Gen.Kernel
import proofs.«160971_j18227841204838_1_alg».proof.Proof.Gen.Kernel.Skeleton
import proofs.«160971_j18227841204838_1_alg».proof.Proof.Gen.Kernel.Launch
import proofs.«160971_j18227841204838_1_alg».proof.Proof.Gen.Kernel.Points
import proofs.«160971_j18227841204838_1_alg».proof.Proof.Gen.Kernel.Frame
import proofs.«160971_j18227841204838_1_alg».proof.Proof.Gen.KernelIdeal
import proofs.«160971_j18227841204838_1_alg».proof.Proof.Gen.KernelIdeal.Skeleton
import proofs.«160971_j18227841204838_1_alg».proof.Proof.Gen.KernelIdeal.Launch
import proofs.«160971_j18227841204838_1_alg».proof.Proof.Gen.KernelIdeal.Points
import proofs.«160971_j18227841204838_1_alg».proof.Proof.Gen.KernelIdeal.Frame
import proofs.«160971_j18227841204838_1_alg».proof.Proof.Gen.ReferenceIdeal
import proofs.«160971_j18227841204838_1_alg».proof.Proof.Gen.Pre_finite_inputs
import proofs.«160971_j18227841204838_1_alg».proof.Proof.Gen.ReferenceIdeal.Run
import proofs.«160971_j18227841204838_1_alg».proof.Proof.Gen.ReferenceIdeal.Read
import proofs.«160971_j18227841204838_1_alg».proof.Proof.KRun
import proofs.«160971_j18227841204838_1_alg».proof.Proof.KArr
import proofs.«160971_j18227841204838_1_alg».proof.Proof.Bridge
import Idealize.ShloMosaic.Adequacy
import Idealize.ShloMosaic.Init

noncomputable section

namespace Cert.Proof

open Idealize.ShloMosaic Idealize.SL.Sem

/-- The kernel program as printed runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the fifteen arguments both idealized programs run, and end with equal result arrays:
    the kernel program's at the second dense stage of the aggregate of the first, the reference's at the same function. -/
theorem algebraic : Cert.algebraic_KernelIdeal_ReferenceIdeal := by
  intro m ρ m' ρ' _ hagree
  refine ⟨fun c => Cert.KernelIdeal.Hand.resultOf m c, ?_, ?_⟩
  · exact (θ_run Cert.KernelIdeal.defs _ _).mono
      (fun r h c => ⟨(h c).1.trans (Cert.KernelIdeal.Hand.W4_v22 m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v77_eq, h0, h1, h2, h3, h4, h5, h6, h7, h8, h9, h10, h11, h12, h13, h14]
    exact (Cert.Bridge.result_eq _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
